-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S4096 .f32) (main_arg5 : FVec F S1024x4096 .f32) (main_arg6 : FVec F S1024 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096 .f32) (main_arg3 : FVec F S4096x4096 .f32) (main_arg4 : FVec F S4096 .f32) (main_arg5 : FVec F S1024x4096 .f32) (main_arg6 : FVec F S1024 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1024x4096 : Shape := ⟨2, ![1024, 4096]⟩
abbrev S1024 : Shape := ⟨1, ![1024]⟩
abbrev S_ : Shape := ⟨0, ![]⟩
abbrev S4096x1024 : Shape := ⟨2, ![4096, 1024]⟩
abbrev S1x4096 : Shape := ⟨2, ![1, 4096]⟩
abbrev S1x1024 : Shape := ⟨2, ![1, 1024]⟩
abbrev S1024x1024 : Shape := ⟨2, ![1024, 1024]⟩
abbrev S8192x1024 : Shape := ⟨2, ![8192, 1024]⟩

abbrev nBuf : Space → Nat
  | .hbm => 44
  | .vmem => 26
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S1024x4096, .f32⟩
  | .hbm, ⟨6, _⟩ => ⟨S1024, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .bf16⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .bf16⟩
  | .hbm, ⟨27, _⟩ => ⟨S1024x4096, .f32⟩
  | .hbm, ⟨28, _⟩ => ⟨S1024x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1024x4096, .f32⟩
  | .hbm, ⟨34, _⟩ => ⟨S1024x4096, .f32⟩
  | .hbm, ⟨35, _⟩ => ⟨S4096x1024, .f32⟩
  | .hbm, ⟨36, _⟩ => ⟨S4096x1024, .bf16⟩
  | .hbm, ⟨37, _⟩ => ⟨S1x4096, .f32⟩
  | .hbm, ⟨38, _⟩ => ⟨S1x4096, .f32⟩
  | .hbm, ⟨39, _⟩ => ⟨S1x1024, .f32⟩
  | .hbm, ⟨40, _⟩ => ⟨S8192x4096, .bf16⟩
  | .hbm, ⟨41, _⟩ => ⟨S8192x4096, .bf16⟩
  | .hbm, ⟨42, _⟩ => ⟨S8192x4096, .bf16⟩
  | .hbm, ⟨43, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 1, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  transposes_S4096x4096_S4096x4096_1_0 : S4096x4096.Transposes [1, 0] S4096x4096
  bitsLt_bf16_f32 : FTy.bits .bf16 < FTy.bits .f32
  reducesTo_S1024x4096_S_d0_1 : S1024x4096.ReducesTo [0, 1] S_
  bcast_S_S1024x4096 : S_.BroadcastsInDim S1024x4096 (![] : Fin 0 → Fin S1024x4096.rank)
  transposes_S1024x4096_S4096x1024_1_0 : S1024x4096.Transposes [1, 0] S4096x1024
  shapeCasts_S4096_S1x4096 : S4096.ShapeCasts S1x4096
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .bf16 = 32 ∨ (Rect.block (s := S8192x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .bf16 = 32 ∨ (Rect.block (s := S8192x4096) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x4096.size a
  hwx2_0 : ∀ i : grid2.Coords, EltTy.bits .bf16 = 32 ∨ (Rect.block (s := S8192x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x1024.size a
  hwx2_1 : ∀ i : grid2.Coords, EltTy.bits .bf16 = 32 ∨ (Rect.block (s := S4096x1024) S1024x1024.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v27) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v28) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v29) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1024x4096 : Shape := ⟨2, ![1024, 4096]⟩
abbrev S1024 : Shape := ⟨1, ![1024]⟩
abbrev S_ : Shape := ⟨0, ![]⟩
abbrev S1x4096 : Shape := ⟨2, ![1, 4096]⟩
abbrev S4096x1024 : Shape := ⟨2, ![4096, 1024]⟩
abbrev S8192x1024 : Shape := ⟨2, ![8192, 1024]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S1024x4096, .f32⟩
  | .hbm, ⟨6, _⟩ => ⟨S1024, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S8192x4096, .f32⟩
  | .hbm, ⟨33, _⟩ => ⟨S1x4096, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S1024x4096, .f32⟩
  | .hbm, ⟨40, _⟩ => ⟨S1024x4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1024x4096, .f32⟩
  | .hbm, ⟨46, _⟩ => ⟨S1024x4096, .f32⟩
  | .hbm, ⟨47, _⟩ => ⟨S4096x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_cst : Ref sig .tc := ⟨.hbm, 36, rfl⟩
abbrev main_call1_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  reducesTo_S1024x4096_S_d0_1 : S1024x4096.ReducesTo [0, 1] S_
  bcast_S_S1024x4096 : S_.BroadcastsInDim S1024x4096 (![] : Fin 0 → Fin S1024x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x4096_S4096x4096_S8192x4096_1_0_0_1_n_n_wf : DotDims.WF S8192x4096 S4096x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.K.Run0.lean ====
import proofs.«119758_j13554916786219_1_alg».proof.Proof.Gen.Kernel.Launch
import proofs.«119758_j13554916786219_1_alg».proof.Proof.Gen.Kernel.Skeleton
import proofs.«119758_j13554916786219_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 0: the body's two conditions, its memrefs, and its run in each of the three cases

The grid's last axis is the reduction axis: a point with last coordinate 0 clears the accumulator before adding
its product (case A), the points with last coordinate 1 and 2 only add (case B), and the point with last coordinate 3
adds and then writes bias + accumulator through the activation into the output block (case C). -/

/-- The body's first condition: the reduction coordinate is 0. -/
abbrev cond0_0 (i : grid0.Coords) : Prop := (Scalar.cmpi .ne (Scalar.extui (Scalar.cmpi .eq (BitVec.ofNat 32 (i 2).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The body's second condition: the reduction coordinate is 3 (the last). -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last reduction step the output window is idle and is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- At the last reduction step it is live. -/
theorem liveAt0_3_C : ∀ t : Fin cfg0.N, ¬cond0_0 (grid0.coords t) → cond0_1 (grid0.coords t) → cfg0.idle 3 (grid0.coords t) = false := by decide +kernel

/-- One staging buffer of the output window, through which its contents are stated. -/
abbrev VO0_3 : View sig .tc .vmem S1024x1024 .bf16 := (Memref.whole cc0_stg3_0 : Memref sig .tc .vmem S1024x1024 .bf16).view
/-- Each window's current staging memref at point `t`, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1024 .f32 := Memref.whole cc0_scratch0
abbrev VS0_0 : View sig .tc .vmem S1024x1024 .f32 := scM0_0.view

set_option maxHeartbeats 1000000 in
/-- Case A (reduction coordinate 0): the accumulator, found at anything, is cleared and the product added; the
    output block is handed back untouched. The accumulator's pieces are what the run finds. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B (reduction coordinate 1 or 2): the product is added to the accumulator as the point before left it; the
    output block is handed back untouched. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C (reduction coordinate 3): the product is added to the accumulator as the point before left it, and
    bias + accumulator goes through the activation into the output block, found at anything. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Layer

end
-- ==== Proof.K.Frame0.lean ====
import proofs.«119758_j13554916786219_1_alg».proof.Proof.K.Run0

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 0: what the accumulator and the output block hold point by point, and the body obligation

Stated at a parameter `V`, the buffer contents when the region is entered. -/

/-- The region's scoped rest split at its own accumulator. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The class invariant with the accumulator as a memref owned at some contents. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-- Case A: the accumulator's pieces tile it, so they cover it. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) (y : S1024x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1024.size (by sl_kernel_rfl) y

/-- What case A leaves in the accumulator: its pieces read back. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) : Vec F S1024x1024 .f32 :=
  VS0_0.read (Elt F) (VS0_0.writes (Elt F) VS0_0.junk (kernelRun0_A c i arg3 harg3 arg4 harg4 arg5 harg5 arg6 harg6 arg7 harg7 hc0 hc1 x0 x1 x2).2.1)

/-- What case A leaves in the output block (nothing is stored there: a placeholder nothing reads). -/
def out0_A_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) : Vec F S1024x1024 .bf16 :=
  VO0_3.read (Elt F) (VO0_3.writes (Elt F) VO0_3.junk (kernelRun0_A c i arg3 harg3 arg4 harg4 arg5 harg5 arg6 harg6 arg7 harg7 hc0 hc1 x0 x1 x2).1)

/-- Case B: the accumulator's pieces tile it, so they cover it. -/
theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1024.size (by sl_kernel_rfl) y

/-- What case B leaves in the accumulator: its pieces read back. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 hc0 hc1 x0 x1 x2 xs0).2.1)

/-- What case B leaves in the output block (nothing is stored there: a placeholder nothing reads). -/
def out0_B_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) : Vec F S1024x1024 .bf16 :=
  VO0_3.read (Elt F) (VO0_3.writes (Elt F) VO0_3.junk (kernelRun0_B c i arg3 harg3 arg4 harg4 arg5 harg5 arg6 harg6 arg7 harg7 hc0 hc1 x0 x1 x2 xs0).1)

/-- Case C: the accumulator's pieces tile it, so they cover it. -/
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x1024.size (by sl_kernel_rfl) y

/-- What case C leaves in the accumulator: its pieces read back. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) : Vec F S1024x1024 .f32 :=
  VS0_0.read (Elt F) (VS0_0.writes (Elt F) VS0_0.junk (kernelRun0_C c i arg3 harg3 arg4 harg4 arg5 harg5 arg6 harg6 arg7 harg7 hc0 hc1 x0 x1 x2 xs0).2.1)

/-- Case C's one store into the output block covers it. -/
theorem cover0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x1024.size (by sl_kernel_rfl) y

/-- What case C leaves in the output block. -/
def out0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) : Vec F S1024x1024 .bf16 :=
  VO0_3.read (Elt F) (VO0_3.writes (Elt F) VO0_3.junk (kernelRun0_C c i arg3 harg3 arg4 harg4 arg5 harg5 arg6 harg6 arg7 harg7 hc0 hc1 x0 x1 x2 xs0).1)

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION: what the output block's staging buffer and the accumulator hold after the body at position `n`:
    the case the point is in, run on the point's blocks, and (cases B, C) on the accumulator the point before left. -/
def outsAt0 (c : Dev nD) : (n : ℕ) → n < cfg0.N → Vec F S1024x1024 .bf16 × Vec F S1024x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at
    what the point before left in it, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of this layer's pipeline on core `c`: the arrays as the region finds them; after the body each
    input's buffer at its block and the output's at `outsAt`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms of the two conditions say which case
    the point is in; the invariant hands the body the accumulator (at anything at a first reduction step, at what the
    point before left otherwise) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HR⟩, Hg⟩
  isplitl [HS0 HR]
  · isplitl [HS0]
    · iexists _; iexact HS0
    iexact HR
  iexact Hg

end

end Cert.Kernel.Layer

end
-- ==== Proof.K.Run1.lean ====
import proofs.«119758_j13554916786219_1_alg».proof.Proof.Gen.Kernel.Launch
import proofs.«119758_j13554916786219_1_alg».proof.Proof.Gen.Kernel.Skeleton
import proofs.«119758_j13554916786219_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 1: the body's two conditions, its memrefs, and its run in each of the three cases

The grid's last axis is the reduction axis: a point with last coordinate 0 clears the accumulator before adding
its product (case A), the points with last coordinate 1 and 2 only add (case B), and the point with last coordinate 3
adds and then writes bias + accumulator through the activation into the output block (case C). -/

/-- The body's first condition: the reduction coordinate is 0. -/
abbrev cond1_0 (i : grid1.Coords) : Prop := (Scalar.cmpi .ne (Scalar.extui (Scalar.cmpi .eq (BitVec.ofNat 32 (i 2).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The body's second condition: the reduction coordinate is 3 (the last). -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last reduction step the output window is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last reduction step it is live. -/
theorem liveAt1_3_C : ∀ t : Fin cfg1.N, ¬cond1_0 (grid1.coords t) → cond1_1 (grid1.coords t) → cfg1.idle 3 (grid1.coords t) = false := by decide +kernel

/-- One staging buffer of the output window, through which its contents are stated. -/
abbrev VO1_3 : View sig .tc .vmem S1024x1024 .bf16 := (Memref.whole cc1_stg3_0 : Memref sig .tc .vmem S1024x1024 .bf16).view
/-- Each window's current staging memref at point `t`, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x1024 .f32 := Memref.whole cc1_scratch0
abbrev VS1_0 : View sig .tc .vmem S1024x1024 .f32 := scM1_0.view

set_option maxHeartbeats 1000000 in
/-- Case A (reduction coordinate 0): the accumulator, found at anything, is cleared and the product added; the
    output block is handed back untouched. The accumulator's pieces are what the run finds. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B (reduction coordinate 1 or 2): the product is added to the accumulator as the point before left it; the
    output block is handed back untouched. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C (reduction coordinate 3): the product is added to the accumulator as the point before left it, and
    bias + accumulator goes through the activation into the output block, found at anything. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Layer

end
-- ==== Proof.K.Frame1.lean ====
import proofs.«119758_j13554916786219_1_alg».proof.Proof.K.Run1

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 1: what the accumulator and the output block hold point by point, and the body obligation

Stated at a parameter `V`, the buffer contents when the region is entered. -/

/-- The region's scoped rest split at its own accumulator. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The class invariant with the accumulator as a memref owned at some contents. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-- Case A: the accumulator's pieces tile it, so they cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case A leaves in the accumulator: its pieces read back. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- What case A leaves in the output block (nothing is stored there: a placeholder nothing reads). -/
def out1_A_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .bf16 :=
  VO1_3.read (Elt F) (VO1_3.writes (Elt F) VO1_3.junk (kernelRun1_A c i arg3 harg3 arg4 harg4 arg5 harg5 arg6 harg6 arg7 harg7 hc0 hc1 x0 x1 x2).1)

/-- Case B: the accumulator's pieces tile it, so they cover it. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case B leaves in the accumulator: its pieces read back. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- What case B leaves in the output block (nothing is stored there: a placeholder nothing reads). -/
def out1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .bf16 :=
  VO1_3.read (Elt F) (VO1_3.writes (Elt F) VO1_3.junk (kernelRun1_B c i arg3 harg3 arg4 harg4 arg5 harg5 arg6 harg6 arg7 harg7 hc0 hc1 x0 x1 x2 xs0).1)

/-- Case C: the accumulator's pieces tile it, so they cover it. -/
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What case C leaves in the accumulator: its pieces read back. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-- Case C's one store into the output block covers it. -/
theorem cover1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What case C leaves in the output block. -/
def out1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .bf16 :=
  VO1_3.read (Elt F) (VO1_3.writes (Elt F) VO1_3.junk (kernelRun1_C c i arg3 harg3 arg4 harg4 arg5 harg5 arg6 harg6 arg7 harg7 hc0 hc1 x0 x1 x2 xs0).1)

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: what the output block's staging buffer and the accumulator hold after the body at position `n`:
    the case the point is in, run on the point's blocks, and (cases B, C) on the accumulator the point before left. -/
def outsAt1 (c : Dev nD) : (n : ℕ) → n < cfg1.N → Vec F S1024x1024 .bf16 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at
    what the point before left in it, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of this layer's pipeline on core `c`: the arrays as the region finds them; after the body each
    input's buffer at its block and the output's at `outsAt`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms of the two conditions say which case
    the point is in; the invariant hands the body the accumulator (at anything at a first reduction step, at what the
    point before left otherwise) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS0, HR⟩, Hg⟩
  isplitl [HS0 HR]
  · isplitl [HS0]
    · iexists _; iexact HS0
    iexact HR
  iexact Hg

end

end Cert.Kernel.Layer

end
-- ==== Proof.K.Run2.lean ====
import proofs.«119758_j13554916786219_1_alg».proof.Proof.Gen.Kernel.Launch
import proofs.«119758_j13554916786219_1_alg».proof.Proof.Gen.Kernel.Skeleton
import proofs.«119758_j13554916786219_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 2: the body's two conditions, its memrefs, and its run in each of the three cases

The grid's last axis is the reduction axis: a point with last coordinate 0 clears the accumulator before adding
its product (case A), the points with last coordinate 1 and 2 only add (case B), and the point with last coordinate 3
adds and then writes bias + accumulator through the activation into the output block (case C). -/

/-- The body's first condition: the reduction coordinate is 0. -/
abbrev cond2_0 (i : grid2.Coords) : Prop := (Scalar.cmpi .ne (Scalar.extui (Scalar.cmpi .eq (BitVec.ofNat 32 (i 2).val) 0#32)) 0#32) = 1#1
/-- It holds exactly at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The body's second condition: the reduction coordinate is 3 (the last). -/
abbrev cond2_1 (i : grid2.Coords) : Prop := k2_cond2 i = 1#1
/-- It holds exactly at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last reduction step the output window is idle and is not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At the last reduction step it is live. -/
theorem liveAt2_3_C : ∀ t : Fin cfg2.N, ¬cond2_0 (grid2.coords t) → cond2_1 (grid2.coords t) → cfg2.idle 3 (grid2.coords t) = false := by decide +kernel

/-- One staging buffer of the output window, through which its contents are stated. -/
abbrev VO2_3 : View sig .tc .vmem S1024x1024 .f32 := (Memref.whole cc2_stg3_0 : Memref sig .tc .vmem S1024x1024 .f32).view
/-- Each window's current staging memref at point `t`, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S1024x1024 .f32 := Memref.whole cc2_scratch0
abbrev VS2_0 : View sig .tc .vmem S1024x1024 .f32 := scM2_0.view

set_option maxHeartbeats 1000000 in
/-- Case A (reduction coordinate 0): the accumulator, found at anything, is cleared and the product added; the
    output block is handed back untouched. The accumulator's pieces are what the run finds. -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B (reduction coordinate 1 or 2): the product is added to the accumulator as the point before left it; the
    output block is handed back untouched. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C (reduction coordinate 3): the product is added to the accumulator as the point before left it, and
    bias + accumulator goes through the activation into the output block, found at anything. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Layer

end
-- ==== Proof.K.Frame2.lean ====
import proofs.«119758_j13554916786219_1_alg».proof.Proof.K.Run2

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 2: what the accumulator and the output block hold point by point, and the body obligation

Stated at a parameter `V`, the buffer contents when the region is entered. -/

/-- The region's scoped rest split at its own accumulator. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The class invariant with the accumulator as a memref owned at some contents. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-- Case A: the accumulator's pieces tile it, so they cover it. -/
theorem scover2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32) (y : S1024x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x1024.size (by sl_kernel_rfl) y

/-- What case A leaves in the accumulator: its pieces read back. -/
def sout2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32) : Vec F S1024x1024 .f32 :=
  VS2_0.read (Elt F) (VS2_0.writes (Elt F) VS2_0.junk (kernelRun2_A c i arg3 harg3 arg4 harg4 arg5 harg5 arg6 harg6 arg7 harg7 hc0 hc1 x0 x1 x2).2.1)

/-- What case A leaves in the output block (nothing is stored there: a placeholder nothing reads). -/
def out2_A_3 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32) : Vec F S1024x1024 .f32 :=
  VO2_3.read (Elt F) (VO2_3.writes (Elt F) VO2_3.junk (kernelRun2_A c i arg3 harg3 arg4 harg4 arg5 harg5 arg6 harg6 arg7 harg7 hc0 hc1 x0 x1 x2).1)

/-- Case B: the accumulator's pieces tile it, so they cover it. -/
theorem scover2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs0 : Vec F S1024x1024 .f32) (y : S1024x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S1024x1024.size (by sl_kernel_rfl) y

/-- What case B leaves in the accumulator: its pieces read back. -/
def sout2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 hc0 hc1 x0 x1 x2 xs0).2.1)

/-- What case B leaves in the output block (nothing is stored there: a placeholder nothing reads). -/
def out2_B_3 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs0 : Vec F S1024x1024 .f32) : Vec F S1024x1024 .f32 :=
  VO2_3.read (Elt F) (VO2_3.writes (Elt F) VO2_3.junk (kernelRun2_B c i arg3 harg3 arg4 harg4 arg5 harg5 arg6 harg6 arg7 harg7 hc0 hc1 x0 x1 x2 xs0).1)

/-- Case C: the accumulator's pieces tile it, so they cover it. -/
theorem scover2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x1024.size (by sl_kernel_rfl) y

/-- What case C leaves in the accumulator: its pieces read back. -/
def sout2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) : Vec F S1024x1024 .f32 :=
  VS2_0.read (Elt F) (VS2_0.writes (Elt F) VS2_0.junk (kernelRun2_C c i arg3 harg3 arg4 harg4 arg5 harg5 arg6 harg6 arg7 harg7 hc0 hc1 x0 x1 x2 xs0).2.1)

/-- Case C's one store into the output block covers it. -/
theorem cover2_C_3 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1024x1024.size (by sl_kernel_rfl) y

/-- What case C leaves in the output block. -/
def out2_C_3 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) : Vec F S1024x1024 .f32 :=
  VO2_3.read (Elt F) (VO2_3.writes (Elt F) VO2_3.junk (kernelRun2_C c i arg3 harg3 arg4 harg4 arg5 harg5 arg6 harg6 arg7 harg7 hc0 hc1 x0 x1 x2 xs0).1)

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- THE ACCUMULATION: what the output block's staging buffer and the accumulator hold after the body at position `n`:
    the case the point is in, run on the point's blocks, and (cases B, C) on the accumulator the point before left. -/
def outsAt2 (c : Dev nD) : (n : ℕ) → n < cfg2.N → Vec F S1024x1024 .f32 × Vec F S1024x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at
    what the point before left in it, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of this layer's pipeline on core `c`: the arrays as the region finds them; after the body each
    input's buffer at its block and the output's at `outsAt`; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms of the two conditions say which case
    the point is in; the invariant hands the body the accumulator (at anything at a first reduction step, at what the
    point before left otherwise) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS0, HR⟩, Hg⟩
  isplitl [HS0 HR]
  · isplitl [HS0]
    · iexists _; iexact HS0
    iexact HR
  iexact Hg

end

end Cert.Kernel.Layer

end
-- ==== Proof.K.Main.lean ====
import proofs.«119758_j13554916786219_1_alg».proof.Proof.K.Frame0
import proofs.«119758_j13554916786219_1_alg».proof.Proof.K.Frame1
import proofs.«119758_j13554916786219_1_alg».proof.Proof.K.Frame2

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: the host operations, then the three layers' regions, and what every buffer holds at the end -/

variable (m : (ℓ : Loc nD τ sig) → Buf (Elt F) ℓ) (ρ : Dev nD → PrngReg)

/-- Core `c`'s buffers at launch, -/
abbrev W0 : Dev nD → Valuation τ sig (Elt F) := fun c b => (s₀ m ρ).mem ((c : Dev nD), b)
/-- and after the host operations (layer 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At layer 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At layer 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At layer 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- LAYER 0's region over the thread state: entered from every unscoped buffer at `W1`, left at `W2`. Its
    arrays are split out of the unscoped buffers and put back at the exit contents; the generator register goes into
    the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 1's region over the thread state: entered from every unscoped buffer at `W2`, left at `W3`. Its
    arrays are split out of the unscoped buffers and put back at the exit contents; the generator register goes into
    the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 2's region over the thread state: entered from every unscoped buffer at `W3`, left at `W4`. Its
    arrays are split out of the unscoped buffers and put back at the exit contents; the generator register goes into
    the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m ρ) () defs₀ 𝒱₀ L lv) :=
  [ .host (hseg hostOps0 hostOps0_sub hostOps0_noalloc (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.Kernel.Layer

end
-- ==== Proof.K.Args.lean ====
import proofs.«119758_j13554916786219_1_alg».proof.Proof.K.Main
import proofs.«119758_j13554916786219_1_alg».proof.Proof.Gen.Kernel.Regions

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The arguments end as launched

No host operation writes an argument and no region's output window is one, so the last boundary's contents at an
argument's buffer walk back to the launch memory. -/

variable (m : (ℓ : Loc nD τ sig) → Buf (Elt F) ℓ) (ρ : Dev nD → PrngReg)

/-- A buffer that no region writes back into and no host operation writes holds its launch contents at the end. -/
theorem W4_kept (c : Dev nD) (b : Ref sig .tc) (h2 : ∀ w, Pipeline.arrRef spec2 w ≠ b) (h1 : ∀ w, Pipeline.arrRef spec1 w ≠ b)
    (h0 : ∀ w, Pipeline.arrRef spec0 w ≠ b) (hh : b ∉ Cert.Kernel.Gen.hostOps0_W) :
    Cert.Kernel.Layer.W4 m ρ c (Proc.devRef .tc b) = m ((c : Thread nD τ).loc b) :=
  (W4_of_ne m ρ c b h2).trans <| (W3_of_ne m ρ c b h1).trans <| (W2_of_ne m ρ c b h0).trans <|
    (StableHlo.after_of_writes_sub hostOps0 _ Cert.Kernel.Gen.hostOps0_writes hh).trans rfl

/-- THE FRAME: every weakly fair execution terminates, nothing faulting, and the seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_kept m ρ c main_arg0 (by decide) (by decide) (by decide) (by decide)),
    (h c _ (mem_uc main_arg1 (by decide))).trans (W4_kept m ρ c main_arg1 (by decide) (by decide) (by decide) (by decide)),
    (h c _ (mem_uc main_arg2 (by decide))).trans (W4_kept m ρ c main_arg2 (by decide) (by decide) (by decide) (by decide)),
    (h c _ (mem_uc main_arg3 (by decide))).trans (W4_kept m ρ c main_arg3 (by decide) (by decide) (by decide) (by decide)),
    (h c _ (mem_uc main_arg4 (by decide))).trans (W4_kept m ρ c main_arg4 (by decide) (by decide) (by decide) (by decide)),
    (h c _ (mem_uc main_arg5 (by decide))).trans (W4_kept m ρ c main_arg5 (by decide) (by decide) (by decide) (by decide)),
    (h c _ (mem_uc main_arg6 (by decide))).trans (W4_kept m ρ c main_arg6 (by decide) (by decide) (by decide) (by decide))⟩) (run_all m ρ)

end Cert.Kernel.Layer

end
-- ==== Proof.KI.Run0.lean ====
import proofs.«119758_j13554916786219_1_alg».proof.Proof.Gen.KernelIdeal.Launch
import proofs.«119758_j13554916786219_1_alg».proof.Proof.Gen.KernelIdeal.Skeleton
import proofs.«119758_j13554916786219_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 0: the body's two conditions, its memrefs, and its run in each of the three cases

The grid's last axis is the reduction axis: a point with last coordinate 0 clears the accumulator before adding
its product (case A), the points with last coordinate 1 and 2 only add (case B), and the point with last coordinate 3
adds and then writes bias + accumulator through the activation into the output block (case C). -/

/-- The body's first condition: the reduction coordinate is 0. -/
abbrev cond0_0 (i : grid0.Coords) : Prop := (Scalar.cmpi .ne (Scalar.extui (Scalar.cmpi .eq (BitVec.ofNat 32 (i 2).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The body's second condition: the reduction coordinate is 3 (the last). -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last reduction step the output window is idle and is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
/-- At the last reduction step it is live. -/
theorem liveAt0_3_C : ∀ t : Fin cfg0.N, ¬cond0_0 (grid0.coords t) → cond0_1 (grid0.coords t) → cfg0.idle 3 (grid0.coords t) = false := by decide +kernel

/-- One staging buffer of the output window, through which its contents are stated. -/
abbrev VO0_3 : View sig .tc .vmem S1024x1024 .bf16 := (Memref.whole cc0_stg3_0 : Memref sig .tc .vmem S1024x1024 .bf16).view
/-- Each window's current staging memref at point `t`, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x1024 .f32 := Memref.whole cc0_scratch0
abbrev VS0_0 : View sig .tc .vmem S1024x1024 .f32 := scM0_0.view

set_option maxHeartbeats 1000000 in
/-- Case A (reduction coordinate 0): the accumulator, found at anything, is cleared and the product added; the
    output block is handed back untouched. The accumulator's pieces are what the run finds. -/
noncomputable def kernelRun0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B (reduction coordinate 1 or 2): the product is added to the accumulator as the point before left it; the
    output block is handed back untouched. -/
noncomputable def kernelRun0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨[], ?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C (reduction coordinate 3): the product is added to the accumulator as the point before left it, and
    bias + accumulator goes through the activation into the output block, found at anything. -/
noncomputable def kernelRun0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Layer

end
-- ==== Proof.KI.Frame0.lean ====
import proofs.«119758_j13554916786219_1_alg».proof.Proof.KI.Run0

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 0: what the accumulator and the output block hold point by point, and the body obligation

Stated at a parameter `V`, the buffer contents when the region is entered. -/

/-- The region's scoped rest split at its own accumulator. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The class invariant with the accumulator as a memref owned at some contents. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-- Case A: the accumulator's pieces tile it, so they cover it. -/
theorem scover0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) (y : S1024x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S1024x1024.size (by sl_kernel_rfl) y

/-- What case A leaves in the accumulator: its pieces read back. -/
def sout0_A_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) : Vec F S1024x1024 .f32 :=
  VS0_0.read (Elt F) (VS0_0.writes (Elt F) VS0_0.junk (kernelRun0_A c i arg3 harg3 arg4 harg4 arg5 harg5 arg6 harg6 arg7 harg7 hc0 hc1 x0 x1 x2).2.1)

/-- What case A leaves in the output block (nothing is stored there: a placeholder nothing reads). -/
def out0_A_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) : Vec F S1024x1024 .bf16 :=
  VO0_3.read (Elt F) (VO0_3.writes (Elt F) VO0_3.junk (kernelRun0_A c i arg3 harg3 arg4 harg4 arg5 harg5 arg6 harg6 arg7 harg7 hc0 hc1 x0 x1 x2).1)

/-- Case B: the accumulator's pieces tile it, so they cover it. -/
theorem scover0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S1024x1024.size (by sl_kernel_rfl) y

/-- What case B leaves in the accumulator: its pieces read back. -/
def sout0_B_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) : Vec F S1024x1024 .f32 :=
  VS0_0.read (Elt F) (VS0_0.writes (Elt F) VS0_0.junk (kernelRun0_B c i arg3 harg3 arg4 harg4 arg5 harg5 arg6 harg6 arg7 harg7 hc0 hc1 x0 x1 x2 xs0).2.1)

/-- What case B leaves in the output block (nothing is stored there: a placeholder nothing reads). -/
def out0_B_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) : Vec F S1024x1024 .bf16 :=
  VO0_3.read (Elt F) (VO0_3.writes (Elt F) VO0_3.junk (kernelRun0_B c i arg3 harg3 arg4 harg4 arg5 harg5 arg6 harg6 arg7 harg7 hc0 hc1 x0 x1 x2 xs0).1)

/-- Case C: the accumulator's pieces tile it, so they cover it. -/
theorem scover0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S1024x1024.size (by sl_kernel_rfl) y

/-- What case C leaves in the accumulator: its pieces read back. -/
def sout0_C_0 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) : Vec F S1024x1024 .f32 :=
  VS0_0.read (Elt F) (VS0_0.writes (Elt F) VS0_0.junk (kernelRun0_C c i arg3 harg3 arg4 harg4 arg5 harg5 arg6 harg6 arg7 harg7 hc0 hc1 x0 x1 x2 xs0).2.1)

/-- Case C's one store into the output block covers it. -/
theorem cover0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) (y : S1024x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1024x1024.size (by sl_kernel_rfl) y

/-- What case C leaves in the output block. -/
def out0_C_3 (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) : Vec F S1024x1024 .bf16 :=
  VO0_3.read (Elt F) (VO0_3.writes (Elt F) VO0_3.junk (kernelRun0_C c i arg3 harg3 arg4 harg4 arg5 harg5 arg6 harg6 arg7 harg7 hc0 hc1 x0 x1 x2 xs0).1)

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION: what the output block's staging buffer and the accumulator hold after the body at position `n`:
    the case the point is in, run on the point's blocks, and (cases B, C) on the accumulator the point before left. -/
def outsAt0 (c : Dev nD) : (n : ℕ) → n < cfg0.N → Vec F S1024x1024 .bf16 × Vec F S1024x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at
    what the point before left in it, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The proof data of this layer's pipeline on core `c`: the arrays as the region finds them; after the body each
    input's buffer at its block and the output's at `outsAt`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms of the two conditions say which case
    the point is in; the invariant hands the body the accumulator (at anything at a first reduction step, at what the
    point before left otherwise) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HR⟩, Hg⟩
  isplitl [HS0 HR]
  · isplitl [HS0]
    · iexists _; iexact HS0
    iexact HR
  iexact Hg

end

end Cert.KernelIdeal.Layer

end
-- ==== Proof.KI.Run1.lean ====
import proofs.«119758_j13554916786219_1_alg».proof.Proof.Gen.KernelIdeal.Launch
import proofs.«119758_j13554916786219_1_alg».proof.Proof.Gen.KernelIdeal.Skeleton
import proofs.«119758_j13554916786219_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 1: the body's two conditions, its memrefs, and its run in each of the three cases

The grid's last axis is the reduction axis: a point with last coordinate 0 clears the accumulator before adding
its product (case A), the points with last coordinate 1 and 2 only add (case B), and the point with last coordinate 3
adds and then writes bias + accumulator through the activation into the output block (case C). -/

/-- The body's first condition: the reduction coordinate is 0. -/
abbrev cond1_0 (i : grid1.Coords) : Prop := (Scalar.cmpi .ne (Scalar.extui (Scalar.cmpi .eq (BitVec.ofNat 32 (i 2).val) 0#32)) 0#32) = 1#1
/-- It holds exactly at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The body's second condition: the reduction coordinate is 3 (the last). -/
abbrev cond1_1 (i : grid1.Coords) : Prop := k1_cond2 i = 1#1
/-- It holds exactly at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last reduction step the output window is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last reduction step it is live. -/
theorem liveAt1_3_C : ∀ t : Fin cfg1.N, ¬cond1_0 (grid1.coords t) → cond1_1 (grid1.coords t) → cfg1.idle 3 (grid1.coords t) = false := by decide +kernel

/-- One staging buffer of the output window, through which its contents are stated. -/
abbrev VO1_3 : View sig .tc .vmem S1024x1024 .bf16 := (Memref.whole cc1_stg3_0 : Memref sig .tc .vmem S1024x1024 .bf16).view
/-- Each window's current staging memref at point `t`, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x1024 .f32 := Memref.whole cc1_scratch0
abbrev VS1_0 : View sig .tc .vmem S1024x1024 .f32 := scM1_0.view

set_option maxHeartbeats 1000000 in
/-- Case A (reduction coordinate 0): the accumulator, found at anything, is cleared and the product added; the
    output block is handed back untouched. The accumulator's pieces are what the run finds. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B (reduction coordinate 1 or 2): the product is added to the accumulator as the point before left it; the
    output block is handed back untouched. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C (reduction coordinate 3): the product is added to the accumulator as the point before left it, and
    bias + accumulator goes through the activation into the output block, found at anything. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .bf16)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Layer

end
-- ==== Proof.KI.Frame1.lean ====
import proofs.«119758_j13554916786219_1_alg».proof.Proof.KI.Run1

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 1: what the accumulator and the output block hold point by point, and the body obligation

Stated at a parameter `V`, the buffer contents when the region is entered. -/

/-- The region's scoped rest split at its own accumulator. -/
theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The class invariant with the accumulator as a memref owned at some contents. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-- Case A: the accumulator's pieces tile it, so they cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case A leaves in the accumulator: its pieces read back. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- What case A leaves in the output block (nothing is stored there: a placeholder nothing reads). -/
def out1_A_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .bf16 :=
  VO1_3.read (Elt F) (VO1_3.writes (Elt F) VO1_3.junk (kernelRun1_A c i arg3 harg3 arg4 harg4 arg5 harg5 arg6 harg6 arg7 harg7 hc0 hc1 x0 x1 x2).1)

/-- Case B: the accumulator's pieces tile it, so they cover it. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case B leaves in the accumulator: its pieces read back. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- What case B leaves in the output block (nothing is stored there: a placeholder nothing reads). -/
def out1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .bf16 :=
  VO1_3.read (Elt F) (VO1_3.writes (Elt F) VO1_3.junk (kernelRun1_B c i arg3 harg3 arg4 harg4 arg5 harg5 arg6 harg6 arg7 harg7 hc0 hc1 x0 x1 x2 xs0).1)

/-- Case C: the accumulator's pieces tile it, so they cover it. -/
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What case C leaves in the accumulator: its pieces read back. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-- Case C's one store into the output block covers it. -/
theorem cover1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What case C leaves in the output block. -/
def out1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .bf16 :=
  VO1_3.read (Elt F) (VO1_3.writes (Elt F) VO1_3.junk (kernelRun1_C c i arg3 harg3 arg4 harg4 arg5 harg5 arg6 harg6 arg7 harg7 hc0 hc1 x0 x1 x2 xs0).1)

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATION: what the output block's staging buffer and the accumulator hold after the body at position `n`:
    the case the point is in, run on the point's blocks, and (cases B, C) on the accumulator the point before left. -/
def outsAt1 (c : Dev nD) : (n : ℕ) → n < cfg1.N → Vec F S1024x1024 .bf16 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at
    what the point before left in it, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of this layer's pipeline on core `c`: the arrays as the region finds them; after the body each
    input's buffer at its block and the output's at `outsAt`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms of the two conditions say which case
    the point is in; the invariant hands the body the accumulator (at anything at a first reduction step, at what the
    point before left otherwise) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS0, HR⟩, Hg⟩
  isplitl [HS0 HR]
  · isplitl [HS0]
    · iexists _; iexact HS0
    iexact HR
  iexact Hg

end

end Cert.KernelIdeal.Layer

end
-- ==== Proof.KI.Run2.lean ====
import proofs.«119758_j13554916786219_1_alg».proof.Proof.Gen.KernelIdeal.Launch
import proofs.«119758_j13554916786219_1_alg».proof.Proof.Gen.KernelIdeal.Skeleton
import proofs.«119758_j13554916786219_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 2: the body's two conditions, its memrefs, and its run in each of the three cases

The grid's last axis is the reduction axis: a point with last coordinate 0 clears the accumulator before adding
its product (case A), the points with last coordinate 1 and 2 only add (case B), and the point with last coordinate 3
adds and then writes bias + accumulator through the activation into the output block (case C). -/

/-- The body's first condition: the reduction coordinate is 0. -/
abbrev cond2_0 (i : grid2.Coords) : Prop := (Scalar.cmpi .ne (Scalar.extui (Scalar.cmpi .eq (BitVec.ofNat 32 (i 2).val) 0#32)) 0#32) = 1#1
/-- It holds exactly at the points ≡ 0 (mod 4). -/
theorem hcond2_0 : ∀ t : Fin cfg2.N, cond2_0 (grid2.coords t) ↔ t.val % 4 = 0 :=
  (by decide +kernel : ∀ t : Fin grid2.N, cond2_0 (grid2.coords t) ↔ t.val % 4 = 0)

/-- The body's second condition: the reduction coordinate is 3 (the last). -/
abbrev cond2_1 (i : grid2.Coords) : Prop := k2_cond2 i = 1#1
/-- It holds exactly at the points ≡ 3 (mod 4). -/
theorem hcond2_1 : ∀ t : Fin cfg2.N, cond2_1 (grid2.coords t) ↔ t.val % 4 = 3 :=
  (by decide +kernel : ∀ t : Fin grid2.N, cond2_1 (grid2.coords t) ↔ t.val % 4 = 3)

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last reduction step the output window is idle and is not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At the last reduction step it is live. -/
theorem liveAt2_3_C : ∀ t : Fin cfg2.N, ¬cond2_0 (grid2.coords t) → cond2_1 (grid2.coords t) → cfg2.idle 3 (grid2.coords t) = false := by decide +kernel

/-- One staging buffer of the output window, through which its contents are stated. -/
abbrev VO2_3 : View sig .tc .vmem S1024x1024 .f32 := (Memref.whole cc2_stg3_0 : Memref sig .tc .vmem S1024x1024 .f32).view
/-- Each window's current staging memref at point `t`, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S1024x1024 .f32 := Memref.whole cc2_scratch0
abbrev VS2_0 : View sig .tc .vmem S1024x1024 .f32 := scM2_0.view

set_option maxHeartbeats 1000000 in
/-- Case A (reduction coordinate 0): the accumulator, found at anything, is cleared and the product added; the
    output block is handed back untouched. The accumulator's pieces are what the run finds. -/
noncomputable def kernelRun2_A (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B (reduction coordinate 1 or 2): the product is added to the accumulator as the point before left it; the
    output block is handed back untouched. -/
noncomputable def kernelRun2_B (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C (reduction coordinate 3): the product is added to the accumulator as the point before left it, and
    bias + accumulator goes through the activation into the output block, found at anything. -/
noncomputable def kernelRun2_C (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Layer

end
-- ==== Proof.KI.Frame2.lean ====
import proofs.«119758_j13554916786219_1_alg».proof.Proof.KI.Run2

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 2: what the accumulator and the output block hold point by point, and the body obligation

Stated at a parameter `V`, the buffer contents when the region is entered. -/

/-- The region's scoped rest split at its own accumulator. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The class invariant with the accumulator as a memref owned at some contents. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-- Case A: the accumulator's pieces tile it, so they cover it. -/
theorem scover2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32) (y : S1024x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x1024.size (by sl_kernel_rfl) y

/-- What case A leaves in the accumulator: its pieces read back. -/
def sout2_A_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32) : Vec F S1024x1024 .f32 :=
  VS2_0.read (Elt F) (VS2_0.writes (Elt F) VS2_0.junk (kernelRun2_A c i arg3 harg3 arg4 harg4 arg5 harg5 arg6 harg6 arg7 harg7 hc0 hc1 x0 x1 x2).2.1)

/-- What case A leaves in the output block (nothing is stored there: a placeholder nothing reads). -/
def out2_A_3 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32) : Vec F S1024x1024 .f32 :=
  VO2_3.read (Elt F) (VO2_3.writes (Elt F) VO2_3.junk (kernelRun2_A c i arg3 harg3 arg4 harg4 arg5 harg5 arg6 harg6 arg7 harg7 hc0 hc1 x0 x1 x2).1)

/-- Case B: the accumulator's pieces tile it, so they cover it. -/
theorem scover2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs0 : Vec F S1024x1024 .f32) (y : S1024x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S1024x1024.size (by sl_kernel_rfl) y

/-- What case B leaves in the accumulator: its pieces read back. -/
def sout2_B_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs0 : Vec F S1024x1024 .f32) : Vec F S1024x1024 .f32 :=
  VS2_0.read (Elt F) (VS2_0.writes (Elt F) VS2_0.junk (kernelRun2_B c i arg3 harg3 arg4 harg4 arg5 harg5 arg6 harg6 arg7 harg7 hc0 hc1 x0 x1 x2 xs0).2.1)

/-- What case B leaves in the output block (nothing is stored there: a placeholder nothing reads). -/
def out2_B_3 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs0 : Vec F S1024x1024 .f32) : Vec F S1024x1024 .f32 :=
  VO2_3.read (Elt F) (VO2_3.writes (Elt F) VO2_3.junk (kernelRun2_B c i arg3 harg3 arg4 harg4 arg5 harg5 arg6 harg6 arg7 harg7 hc0 hc1 x0 x1 x2 xs0).1)

/-- Case C: the accumulator's pieces tile it, so they cover it. -/
theorem scover2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x1024.size (by sl_kernel_rfl) y

/-- What case C leaves in the accumulator: its pieces read back. -/
def sout2_C_0 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) : Vec F S1024x1024 .f32 :=
  VS2_0.read (Elt F) (VS2_0.writes (Elt F) VS2_0.junk (kernelRun2_C c i arg3 harg3 arg4 harg4 arg5 harg5 arg6 harg6 arg7 harg7 hc0 hc1 x0 x1 x2 xs0).2.1)

/-- Case C's one store into the output block covers it. -/
theorem cover2_C_3 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) (y : S1024x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1024x1024.size (by sl_kernel_rfl) y

/-- What case C leaves in the output block. -/
def out2_C_3 (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) : Vec F S1024x1024 .f32 :=
  VO2_3.read (Elt F) (VO2_3.writes (Elt F) VO2_3.junk (kernelRun2_C c i arg3 harg3 arg4 harg4 arg5 harg5 arg6 harg6 arg7 harg7 hc0 hc1 x0 x1 x2 xs0).1)

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- THE ACCUMULATION: what the output block's staging buffer and the accumulator hold after the body at position `n`:
    the case the point is in, run on the point's blocks, and (cases B, C) on the accumulator the point before left. -/
def outsAt2 (c : Dev nD) : (n : ℕ) → n < cfg2.N → Vec F S1024x1024 .f32 × Vec F S1024x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at
    what the point before left in it, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of this layer's pipeline on core `c`: the arrays as the region finds them; after the body each
    input's buffer at its block and the output's at `outsAt`; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms of the two conditions say which case
    the point is in; the invariant hands the body the accumulator (at anything at a first reduction step, at what the
    point before left otherwise) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 32 := N_2; omega), PhiA2_eq]
  iintro ⟨⟨HS0, HR⟩, Hg⟩
  isplitl [HS0 HR]
  · isplitl [HS0]
    · iexists _; iexact HS0
    iexact HR
  iexact Hg

end

end Cert.KernelIdeal.Layer

end
-- ==== Proof.KI.Main.lean ====
import proofs.«119758_j13554916786219_1_alg».proof.Proof.KI.Frame0
import proofs.«119758_j13554916786219_1_alg».proof.Proof.KI.Frame1
import proofs.«119758_j13554916786219_1_alg».proof.Proof.KI.Frame2

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole program: the host operations, then the three layers' regions, and what every buffer holds at the end -/

variable (m : (ℓ : Loc nD τ sig) → Buf (Elt F) ℓ) (ρ : Dev nD → PrngReg)

/-- Core `c`'s buffers at launch, -/
abbrev W0 : Dev nD → Valuation τ sig (Elt F) := fun c b => (s₀ m ρ).mem ((c : Dev nD), b)
/-- and after the host operations (layer 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At layer 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At layer 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At layer 2's exit: its arrays at what the pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- LAYER 0's region over the thread state: entered from every unscoped buffer at `W1`, left at `W2`. Its
    arrays are split out of the unscoped buffers and put back at the exit contents; the generator register goes into
    the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 1's region over the thread state: entered from every unscoped buffer at `W2`, left at `W3`. Its
    arrays are split out of the unscoped buffers and put back at the exit contents; the generator register goes into
    the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 2's region over the thread state: entered from every unscoped buffer at `W3`, left at `W4`. Its
    arrays are split out of the unscoped buffers and put back at the exit contents; the generator register goes into
    the invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m ρ) () defs₀ 𝒱₀ L lv) :=
  [ .host (hseg hostOps0 hostOps0_sub hostOps0_noalloc (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Layer

end
-- ==== Proof.KI.Args.lean ====
import proofs.«119758_j13554916786219_1_alg».proof.Proof.KI.Main
import proofs.«119758_j13554916786219_1_alg».proof.Proof.Gen.KernelIdeal.Regions

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The arguments end as launched

No host operation writes an argument and no region's output window is one, so the last boundary's contents at an
argument's buffer walk back to the launch memory. -/

variable (m : (ℓ : Loc nD τ sig) → Buf (Elt F) ℓ) (ρ : Dev nD → PrngReg)

/-- A buffer that no region writes back into and no host operation writes holds its launch contents at the end. -/
theorem W4_kept (c : Dev nD) (b : Ref sig .tc) (h2 : ∀ w, Pipeline.arrRef spec2 w ≠ b) (h1 : ∀ w, Pipeline.arrRef spec1 w ≠ b)
    (h0 : ∀ w, Pipeline.arrRef spec0 w ≠ b) (hh : b ∉ Cert.KernelIdeal.Gen.hostOps0_W) :
    Cert.KernelIdeal.Layer.W4 m ρ c (Proc.devRef .tc b) = m ((c : Thread nD τ).loc b) :=
  (W4_of_ne m ρ c b h2).trans <| (W3_of_ne m ρ c b h1).trans <| (W2_of_ne m ρ c b h0).trans <|
    (StableHlo.after_of_writes_sub hostOps0 _ Cert.KernelIdeal.Gen.hostOps0_writes hh).trans rfl

/-- THE FRAME: every weakly fair execution terminates, nothing faulting, and the seven arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W4_kept m ρ c main_arg0 (by decide) (by decide) (by decide) (by decide)),
    (h c _ (mem_uc main_arg1 (by decide))).trans (W4_kept m ρ c main_arg1 (by decide) (by decide) (by decide) (by decide)),
    (h c _ (mem_uc main_arg2 (by decide))).trans (W4_kept m ρ c main_arg2 (by decide) (by decide) (by decide) (by decide)),
    (h c _ (mem_uc main_arg3 (by decide))).trans (W4_kept m ρ c main_arg3 (by decide) (by decide) (by decide) (by decide)),
    (h c _ (mem_uc main_arg4 (by decide))).trans (W4_kept m ρ c main_arg4 (by decide) (by decide) (by decide) (by decide)),
    (h c _ (mem_uc main_arg5 (by decide))).trans (W4_kept m ρ c main_arg5 (by decide) (by decide) (by decide) (by decide)),
    (h c _ (mem_uc main_arg6 (by decide))).trans (W4_kept m ρ c main_arg6 (by decide) (by decide) (by decide) (by decide))⟩) (run_all m ρ)

end Cert.KernelIdeal.Layer

end
-- ==== Proof.KI.Out.lean ====
import proofs.«119758_j13554916786219_1_alg».proof.Proof.KI.Args

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run with the result array named -/

variable (m : (ℓ : Loc nD τ sig) → Buf (Elt F) ℓ) (ρ : Dev nD → PrngReg)

/-- Every weakly fair execution terminates with the result array at the last boundary's contents and the arguments as launched. -/
theorem run_out : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v30 (by decide)),
    (h c _ (mem_uc main_arg0 (by decide))).trans (W4_kept m ρ c main_arg0 (by decide) (by decide) (by decide) (by decide)),
    (h c _ (mem_uc main_arg1 (by decide))).trans (W4_kept m ρ c main_arg1 (by decide) (by decide) (by decide) (by decide)),
    (h c _ (mem_uc main_arg2 (by decide))).trans (W4_kept m ρ c main_arg2 (by decide) (by decide) (by decide) (by decide)),
    (h c _ (mem_uc main_arg3 (by decide))).trans (W4_kept m ρ c main_arg3 (by decide) (by decide) (by decide) (by decide)),
    (h c _ (mem_uc main_arg4 (by decide))).trans (W4_kept m ρ c main_arg4 (by decide) (by decide) (by decide) (by decide)),
    (h c _ (mem_uc main_arg5 (by decide))).trans (W4_kept m ρ c main_arg5 (by decide) (by decide) (by decide) (by decide)),
    (h c _ (mem_uc main_arg6 (by decide))).trans (W4_kept m ρ c main_arg6 (by decide) (by decide) (by decide) (by decide))⟩) (run_all m ρ)

end Cert.KernelIdeal.Layer

end
-- ==== Proof.Spec.lean ====
import Idealize.ShloMosaic.PureOps.Ideal
import Idealize.ShloMosaic.Lib.ValueIdx
import Idealize.ShloMosaic.PureOps.Ideal.Laws

/-!
# What the network computes, on the extended reals

Three dense layers in a row. A dense layer sends an [M, K] matrix X, a [K, N] matrix W and an [N] vector b to the
[M, N] matrix whose entry (i, j) is act (Σ_k X(i,k) · W(k,j) + b(j)). The first two layers use the rectifier
x ↦ max x 0 (the zero kept as the zero word, which both programs spell the same way), the last the logistic
function. The weights enter already scaled and transposed: how they are made from the raw weights is the same
chain of host operations in both programs and is never opened here.

Also: a sum over 4096 positions is the sum over four blocks of 1024 of each block's sum, which is how a product
accumulated over a grid axis in four steps meets one whole product. Only commutativity and associativity of +
are used, so the statement holds on the extended reals with no finiteness assumption.
-/

noncomputable section

namespace Cert.Mlp

open Idealize.ShloMosaic Idealize.ShloMosaic.ValueIdx

/-- An a-by-b matrix and an a-vector of extended reals, over the literal index types the programs use. -/
abbrev Mat (a b : Nat) : Type := (⟨2, ![a, b]⟩ : Shape).Idx → EReal
abbrev Vc (a : Nat) : Type := (⟨1, ![a]⟩ : Shape).Idx → EReal

/-- The zero word, as both programs write it. -/
abbrev zeroW : EReal := Ideal.ofBits .f32 0x00000000#32

/-- The rectifier. -/
def relu (x : EReal) : EReal := max x zeroW

/-- One dense layer. -/
def dense (act : EReal → EReal) {M K N : Nat} (X : Mat M K) (Wt : Mat K N) (b : Vc N) : Mat M N :=
  fun j => act ((∑ k : Fin K, X (ix2 (j 0) k) * Wt (ix2 k (j 1))) + b (ix1 (j 1)))

theorem dense_apply (act : EReal → EReal) {M K N : Nat} (X : Mat M K) (Wt : Mat K N) (b : Vc N) (p : Fin M) (q : Fin N) :
    dense act X Wt b (ix2 p q) = act ((∑ k : Fin K, X (ix2 p k) * Wt (ix2 k q)) + b (ix1 q)) := rfl

/-- The three layers. -/
def mlp (x : Mat 8192 4096) (wt1 : Mat 4096 4096) (b1 : Vc 4096) (wt2 : Mat 4096 4096) (b2 : Vc 4096)
    (wt3 : Mat 4096 1024) (b3 : Vc 1024) : Mat 8192 1024 :=
  dense Ideal.logistic (dense relu (dense relu x wt1 b1) wt2 b2) wt3 b3

/-- 4096 positions as four blocks of 1024: position 1024 · b + k is the k-th of block b. -/
theorem sum_4096_blocks {A : Type*} [AddCommMonoid A] (f : Fin 4096 → A) :
    ∑ l : Fin 4096, f l = ∑ b : Fin 4, ∑ k : Fin 1024, f ⟨1024 * b.val + k.val, by omega⟩ := by
  rw [← Equiv.sum_comp (finProdFinEquiv (m := 4) (n := 1024)) f, Fintype.sum_prod_type]
  refine Finset.sum_congr rfl fun b _ => Finset.sum_congr rfl fun k _ => congrArg f (Fin.ext ?_)
  show k.val + 1024 * b.val = 1024 * b.val + k.val
  omega

/-- The four blocks added one at a time onto the zero word, as the accumulator does. -/
theorem four_steps (S : Fin 4 → EReal) :
    (((zeroW + S 0) + S 1) + S 2) + S 3 = ∑ b : Fin 4, S b := by
  rw [show zeroW = 0 from Ideal.ofBits_zero_f32, zero_add, Fin.sum_univ_four]

/-- A row of one 1024-by-1024 block against a column of another. -/
def blockProd (x w : Mat 1024 1024) (p q : Fin 1024) : EReal := ∑ k : Fin 1024, x (ix2 p k) * w (ix2 k q)

/-- Stretch b (of four) of the row-by-column product over 4096 positions. -/
def blockSum {M N : Nat} (X : Mat M 4096) (W : Mat 4096 N) (i : Fin M) (j : Fin N) (b : Fin 4) : EReal :=
  ∑ k : Fin 1024, X (ix2 i ⟨1024 * b.val + k.val, by omega⟩) * W (ix2 ⟨1024 * b.val + k.val, by omega⟩ j)

/-- A [1, N] row as a vector. -/
def biasRow {N : Nat} (B : Mat 1 N) : Vc N := fun j => B (ix2 0 (j 0))

/-- A dense layer's entry from the four stretches added one at a time onto the zero word. -/
theorem dense_blocks (act : EReal → EReal) {M N : Nat} (X : Mat M 4096) (W : Mat 4096 N) (B : Mat 1 N) (i : Fin M) (j : Fin N) :
    dense act X W (biasRow B) (ix2 i j)
      = act (((((zeroW + blockSum X W i j 0) + blockSum X W i j 1) + blockSum X W i j 2) + blockSum X W i j 3) + B (ix2 0 j)) := by
  rw [dense_apply, sum_4096_blocks, ← four_steps]
  rfl

end Cert.Mlp

end
-- ==== Proof.KI.Cases0.lean ====
import proofs.«119758_j13554916786219_1_alg».proof.Proof.KI.Frame0
import proofs.«119758_j13554916786219_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 0: what each case leaves, as values

Case A leaves in the accumulator zero plus the point's product; cases B and C add the point's product to what the
point before left; case C then stores act (accumulator + bias) into the output block. Read at an entry (p, q) on the
extended reals, the product of two 1024-by-1024 blocks is Σ_k x(p,k) · w(k,q). -/

open Idealize.ShloMosaic.ValueIdx

theorem hz0 : (![0, 0] : Fin 2 → Nat) = fun _ => 0 := funext fun a => by fin_cases a <;> rfl

theorem soutA0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  try sl_unfold_words
  rw [View.canon_cons_unit_zero (S := S1024x1024) hz0, View.readCov_unit_zero (S := S1024x1024) _ hz0]
  simp only [View.readAt_eq_ld, harg3.read_unread, harg4.read_unread, View.ld_unit_zero (S := S1024x1024) hz0]

theorem soutB0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  try sl_unfold_words
  rw [View.canon_unit_zero (S := S1024x1024) hz0]
  simp only [View.readAt_eq_ld, harg3.read_unread, harg4.read_unread, harg7.read_unread, View.ld_unit_zero (S := S1024x1024) hz0]

theorem soutC0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  try sl_unfold_words
  rw [View.canon_unit_zero (S := S1024x1024) hz0]
  simp only [View.readAt_eq_ld, harg3.read_unread, harg4.read_unread, harg7.read_unread, View.ld_unit_zero (S := S1024x1024) hz0]

theorem outC0_eq (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  try sl_unfold_words
  rw [View.canon_unit_zero (S := S1024x1024) hz0, View.readCov_unit_zero (S := S1024x1024) _ hz0]
  simp only [View.readAt_eq_ld, harg3.read_unread, harg4.read_unread, harg5.read_unread, harg7.read_unread,
    View.ld_unit_zero (S := S1024x1024) hz0, View.ld_unit_zero (S := S1x1024) hz0]

/-! ## The three payloads at an entry, on the extended reals -/

theorem pay1_0_apply (p q : Fin 1024) : k0_pay1 (F := Ideal) (ix2 p q) = Cert.Mlp.zeroW := by
  unfold k0_pay1
  simp only [shapeCast_self]
  rfl

theorem dl0_0 (i : S1024x1024.Idx) (k : dot_S1024x1024_S1024x1024_S1024x1024_1_0_0_1_n_n.contr.Idx) : (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem dr1_0 (i : S1024x1024.Idx) (k : dot_S1024x1024_S1024x1024_S1024x1024_1_0_0_1_n_n.contr.Idx) : (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The accumulate step at an entry: the old value plus the row-by-column product of the two blocks. -/
theorem pay2_0_apply (acc : FVec Ideal S1024x1024 .f32) (x w : FVec Ideal S1024x1024 .bf16) (p q : Fin 1024) :
    k0_pay2 (F := Ideal) acc x w (ix2 p q) = acc (ix2 p q) + ∑ k : Fin 1024, x (ix2 p k) * w (ix2 k q) := by
  unfold k0_pay2
  simp only [shapeCast_self, matmul]
  refine congrArg (acc (ix2 p q) + ·) ?_
  refine (Ideal.matmul_constant_zero_apply dot_S1024x1024_S1024x1024_S1024x1024_1_0_0_1_n_n none x w (ix2 p q)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact dl0_0 _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (dot_S1024x1024_S1024x1024_S1024x1024_1_0_0_1_n_n.rhsIdx_val_of_single rfl _ _).trans hk
    | ⟨1, _⟩ => exact dr1_0 _ _)
  rw [el, er]

/-- The last step at an entry: the activation of accumulator plus bias. -/
theorem pay3_0_apply (acc : FVec Ideal S1024x1024 .f32) (b : FVec Ideal S1x1024 .f32) (p q : Fin 1024) :
    k0_pay3 (F := Ideal) acc b (ix2 p q) = Cert.Mlp.relu (acc (ix2 p q) + b (ix2 0 q)) := by
  unfold k0_pay3
  simp only [shapeCast_self]
  have hb : broadcastTo S1024x1024 b broadcasts_S1x1024_S1024x1024 (ix2 p q) = b (ix2 0 q) :=
    broadcastTo_apply b _ (ix2 p q) (ix2 0 q) (fun a => by
      match a with
      | ⟨0, _⟩ => rfl
      | ⟨1, _⟩ => rfl)
  show max (acc (ix2 p q) + broadcastTo S1024x1024 b broadcasts_S1x1024_S1024x1024 (ix2 p q)) (Ideal.ofBits .f32 0x00000000#32) = _
  rw [hb]
  rfl

end Cert.KernelIdeal.Layer

end
-- ==== Proof.KI.Value0.lean ====
import proofs.«119758_j13554916786219_1_alg».proof.Proof.KI.Cases0

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 0: the output array after the region is the dense layer of the arrays the region reads

The output block (I, J) is written back once, at the last of the four points that share (I, J); by then the accumulator
holds zero plus the four products of the row blocks (I, b) of the input with the column blocks (b, J) of the weights,
b = 0, 1, 2, 3, added in that order: the whole row-by-column product over 4096 positions. The blocks tile the array. -/

open Idealize.ShloMosaic.ValueIdx

/-- The printed index maps in closed form, decided over the grid. -/
theorem idx0 : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

section
variable (V : (c : Dev nD) → (b : Ref sig .tc) → Buf (Elt Ideal) ((c : Thread nD τ).loc b))

/-- The point's product at an entry: a row of its input block against a column of its weight block. -/
def prod0 (c : Dev nD) (t : Fin cfg0.N) (p q : Fin 1024) : EReal :=
  Cert.Mlp.blockProd (iblk0 V c 0 t) (iblk0 V c 1 t) p q

theorem acc0_A (c : Dev nD) (t : Fin cfg0.N) (h0 : t.val % 4 = 0) (p q : Fin 1024) :
    (outsAt0 V c t.val t.isLt).2 (ix2 p q) = Cert.Mlp.zeroW + prod0 V c t p q := by
  have h1 : ¬t.val % 4 = 3 := by omega
  rw [outsAt0_A V c t h0 h1]
  dsimp only
  rw [soutA0_eq, pay2_0_apply, pay1_0_apply]
  rfl

theorem acc0_B (c : Dev nD) (t : Fin cfg0.N) (h0 : ¬t.val % 4 = 0) (h1 : ¬t.val % 4 = 3) (p q : Fin 1024) :
    (outsAt0 V c t.val t.isLt).2 (ix2 p q)
      = (outsAt0 V c (t.val - 1) (Nat.lt_of_le_of_lt (Nat.sub_le _ _) t.isLt)).2 (ix2 p q) + prod0 V c t p q := by
  rw [outsAt0_B V c t h0 h1]
  dsimp only
  rw [soutB0_eq, pay2_0_apply]
  rfl

theorem acc0_C (c : Dev nD) (t : Fin cfg0.N) (h0 : ¬t.val % 4 = 0) (h1 : t.val % 4 = 3) (p q : Fin 1024) :
    (outsAt0 V c t.val t.isLt).2 (ix2 p q)
      = (outsAt0 V c (t.val - 1) (Nat.lt_of_le_of_lt (Nat.sub_le _ _) t.isLt)).2 (ix2 p q) + prod0 V c t p q := by
  rw [outsAt0_C V c t h0 h1]
  dsimp only
  rw [soutC0_eq, pay2_0_apply]
  rfl

theorem out0_C (c : Dev nD) (t : Fin cfg0.N) (h0 : ¬t.val % 4 = 0) (h1 : t.val % 4 = 3) (p q : Fin 1024) :
    (outsAt0 V c t.val t.isLt).1 (ix2 p q)
      = Cert.Mlp.relu ((outsAt0 V c t.val t.isLt).2 (ix2 p q) + (iblk0 V c 2 t : Cert.Mlp.Mat 1 1024) (ix2 0 q)) := by
  rw [outsAt0_C V c t h0 h1]
  dsimp only
  rw [outC0_eq, soutC0_eq, pay3_0_apply]

/-- At the last of four points sharing an output block the accumulator holds zero plus the four points' products,
    added in the points' order. -/
theorem acc0_last (c : Dev nD) (t : Fin cfg0.N) (h3 : t.val % 4 = 3) (p q : Fin 1024) :
    (outsAt0 V c t.val t.isLt).2 (ix2 p q)
      = (((Cert.Mlp.zeroW + prod0 V c ⟨t.val - 1 - 1 - 1, Nat.lt_of_le_of_lt (show t.val - 1 - 1 - 1 ≤ t.val by omega) t.isLt⟩ p q)
          + prod0 V c ⟨t.val - 1 - 1, Nat.lt_of_le_of_lt (show t.val - 1 - 1 ≤ t.val by omega) t.isLt⟩ p q)
          + prod0 V c ⟨t.val - 1, Nat.lt_of_le_of_lt (show t.val - 1 ≤ t.val by omega) t.isLt⟩ p q)
          + prod0 V c t p q := by
  rw [acc0_C V c t (by omega) h3 p q]
  rw [acc0_B V c ⟨t.val - 1, Nat.lt_of_le_of_lt (show t.val - 1 ≤ t.val by omega) t.isLt⟩ (by first | rfl | omega | (dsimp only; omega)) (by first | rfl | omega | (dsimp only; omega)) p q]
  rw [acc0_B V c ⟨t.val - 1 - 1, Nat.lt_of_le_of_lt (show t.val - 1 - 1 ≤ t.val by omega) t.isLt⟩ (by first | rfl | omega | (dsimp only; omega)) (by first | rfl | omega | (dsimp only; omega)) p q]
  rw [acc0_A V c ⟨t.val - 1 - 1 - 1, Nat.lt_of_le_of_lt (show t.val - 1 - 1 - 1 ≤ t.val by omega) t.isLt⟩ (by first | rfl | omega | (dsimp only; omega)) p q]

/-- A point's product is a stretch of 1024 positions of the whole row-by-column product: the point's blocks are blocks
    (I, b) of the input array and (b, J) of the weight array. -/
theorem prod0_eq (c : Dev nD) (s : Fin cfg0.N) (p q : Fin 1024) (i : Fin 8192) (j : Fin 4096) (b : Fin 4)
    (hi : i.val = 1024 * (s.val / 16) + p.val) (hj : j.val = 1024 * (s.val / 4 % 4) + q.val) (hb : b.val = s.val % 4) :
    prod0 V c s p q = Cert.Mlp.blockSum (V c main_v27) (V c main_v7) i j b := by
  obtain ⟨e00, e01, e10, e11, -, -, -, -⟩ := idx0 s
  unfold prod0 Cert.Mlp.blockProd Cert.Mlp.blockSum
  refine Finset.sum_congr rfl fun k _ => ?_
  have hk : 1024 * b.val + k.val < 4096 := by omega
  have hx : iblk0 V c 0 s (ix2 p k) = V c main_v27 (ix2 i (⟨1024 * b.val + k.val, hk⟩ : Fin 4096)) := by
    show V c main_v27 (((cfg0.win 0).blk s).view.emb (ix2 p k)) = _
    refine congrArg (V c main_v27) (funext fun a => Fin.ext ?_)
    match a with
    | ⟨0, _⟩ => show win0_0.index s (0 : Fin 2) * 1024 + 1 * p.val = i.val; omega
    | ⟨1, _⟩ => show win0_0.index s (1 : Fin 2) * 1024 + 1 * k.val = 1024 * b.val + k.val; omega
  have hw : iblk0 V c 1 s (ix2 k q) = V c main_v7 (ix2 (⟨1024 * b.val + k.val, hk⟩ : Fin 4096) j) := by
    show V c main_v7 (((cfg0.win 1).blk s).view.emb (ix2 k q)) = _
    refine congrArg (V c main_v7) (funext fun a => Fin.ext ?_)
    match a with
    | ⟨0, _⟩ => show win0_1.index s (0 : Fin 2) * 1024 + 1 * k.val = 1024 * b.val + k.val; omega
    | ⟨1, _⟩ => show win0_1.index s (1 : Fin 2) * 1024 + 1 * q.val = j.val; omega
  exact congrArg₂ (fun (u v : EReal) => u * v) hx hw

/-- The layer's function of the arrays the region reads. -/
def G0 (c : Dev nD) : Cert.Mlp.Mat 8192 4096 :=
  Cert.Mlp.dense Cert.Mlp.relu (V c main_v27) (V c main_v7) (Cert.Mlp.biasRow (V c main_v24))

/-- WHAT A WRITING POINT WRITES BACK is its block of the layer's function. -/
theorem flushed0_eq (c : Dev nD) (t : Fin cfg0.N) (hf : (cfg0.win 3).flush t = true) :
    (dat0 V c).flushed 3 t = ((cfg0.win 3).blk t).view.read (Elt Ideal) (G0 V c) := by
  have h3 : t.val % 4 = 3 := (flush0_3 t).mp hf
  have hN : t.val < 128 := lt_of_lt_of_eq t.isLt (show cfg0.N = 128 from N_0)
  obtain ⟨-, -, -, -, e20, e21, e30, e31⟩ := idx0 t
  show (cfg0.win 3).cut (grid0.coords t) ((dat0 V c).after 3 t) = _
  rw [after0_3]
  funext y
  obtain ⟨p, q, rfl⟩ : ∃ (p q : Fin 1024), y = ix2 p q := ⟨y 0, y 1, eq_ix2 y⟩
  show (outsAt0 V c t.val t.isLt).1 (ix2 p q) = G0 V c (((cfg0.win 3).blk t).view.emb (ix2 p q))
  have hi : 1024 * (t.val / 16) + p.val < 8192 := by omega
  have hj : 1024 * (t.val / 4 % 4) + q.val < 4096 := by omega
  have hemb : ((cfg0.win 3).blk t).view.emb (ix2 p q) = ix2 (⟨1024 * (t.val / 16) + p.val, hi⟩ : Fin 8192) (⟨1024 * (t.val / 4 % 4) + q.val, hj⟩ : Fin 4096) := by
    funext a; apply Fin.ext
    match a with
    | ⟨0, _⟩ => show win0_3.index t (0 : Fin 2) * 1024 + 1 * p.val = 1024 * (t.val / 16) + p.val; omega
    | ⟨1, _⟩ => show win0_3.index t (1 : Fin 2) * 1024 + 1 * q.val = 1024 * (t.val / 4 % 4) + q.val; omega
  have hb : (iblk0 V c 2 t : Cert.Mlp.Mat 1 1024) (ix2 0 q)
      = (V c main_v24 : Cert.Mlp.Mat 1 4096) (ix2 0 (⟨1024 * (t.val / 4 % 4) + q.val, hj⟩ : Fin 4096)) := by
    show V c main_v24 (((cfg0.win 2).blk t).view.emb (ix2 0 q)) = _
    refine congrArg (V c main_v24) (funext fun a => Fin.ext ?_)
    match a with
    | ⟨0, _⟩ => show win0_2.index t (0 : Fin 2) * 1 + 1 * 0 = 0; omega
    | ⟨1, _⟩ => show win0_2.index t (1 : Fin 2) * 1024 + 1 * q.val = 1024 * (t.val / 4 % 4) + q.val; omega
  rw [hemb, out0_C V c t (by omega) h3 p q, acc0_last V c t h3 p q, hb]
  unfold G0
  rw [Cert.Mlp.dense_blocks]
  rw [prod0_eq V c ⟨t.val - 1 - 1 - 1, Nat.lt_of_le_of_lt (show t.val - 1 - 1 - 1 ≤ t.val by omega) t.isLt⟩ p q ⟨_, hi⟩ ⟨_, hj⟩ 0 (by first | rfl | omega | (dsimp only; omega)) (by first | rfl | omega | (dsimp only; omega)) (by first | rfl | omega | (dsimp only; omega)),
    prod0_eq V c ⟨t.val - 1 - 1, Nat.lt_of_le_of_lt (show t.val - 1 - 1 ≤ t.val by omega) t.isLt⟩ p q ⟨_, hi⟩ ⟨_, hj⟩ 1 (by first | rfl | omega | (dsimp only; omega)) (by first | rfl | omega | (dsimp only; omega)) (by first | rfl | omega | (dsimp only; omega)),
    prod0_eq V c ⟨t.val - 1, Nat.lt_of_le_of_lt (show t.val - 1 ≤ t.val by omega) t.isLt⟩ p q ⟨_, hi⟩ ⟨_, hj⟩ 2 (by first | rfl | omega | (dsimp only; omega)) (by first | rfl | omega | (dsimp only; omega)) (by first | rfl | omega | (dsimp only; omega)),
    prod0_eq V c t p q ⟨_, hi⟩ ⟨_, hj⟩ 3 (by first | rfl | omega | (dsimp only; omega)) (by first | rfl | omega | (dsimp only; omega)) (by first | rfl | omega | (dsimp only; omega))]

/-- An index of the output array is in point `t`'s block iff each coordinate is in the block's range on its axis. -/
theorem mem_blk0 (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v28).slice (win0_3.rect t)).set ↔ _
  rw [View.set_slice_whole, Rect.mem_set_unit]
  exact Iff.rfl

/-- THE LAYER: after the region its output array holds the dense layer of the arrays the region read. -/
theorem layer0_value (c : Dev nD) : (dat0 V c).arrAt 3 cfg0.N = G0 V c :=
  (dat0 V c).arrAt_eq_of_cover 3 (G0 V c) (flushed0_eq V c) fun i => by
    have hi0 : (i 0).val < 8192 := (i 0).isLt
    have hi1 : (i 1).val < 4096 := (i 1).isLt
    have hlt : 16 * ((i 0).val / 1024) + 4 * ((i 1).val / 1024) + 3 < cfg0.N := by rw [show cfg0.N = 128 from N_0]; omega
    obtain ⟨-, -, -, -, -, -, e30, e31⟩ := idx0 ⟨16 * ((i 0).val / 1024) + 4 * ((i 1).val / 1024) + 3, hlt⟩
    refine ⟨⟨16 * ((i 0).val / 1024) + 4 * ((i 1).val / 1024) + 3, hlt⟩, (flush0_3 _).mpr (by first | rfl | omega | (dsimp only; omega)), ?_⟩
    rw [mem_blk0]
    intro a
    match a with
    | ⟨0, _⟩ => show win0_3.index ⟨16 * ((i 0).val / 1024) + 4 * ((i 1).val / 1024) + 3, hlt⟩ (0 : Fin 2) * 1024 ≤ (i 0).val ∧ (i 0).val < win0_3.index ⟨16 * ((i 0).val / 1024) + 4 * ((i 1).val / 1024) + 3, hlt⟩ (0 : Fin 2) * 1024 + 1024; dsimp only at e30; omega
    | ⟨1, _⟩ => show win0_3.index ⟨16 * ((i 0).val / 1024) + 4 * ((i 1).val / 1024) + 3, hlt⟩ (1 : Fin 2) * 1024 ≤ (i 1).val ∧ (i 1).val < win0_3.index ⟨16 * ((i 0).val / 1024) + 4 * ((i 1).val / 1024) + 3, hlt⟩ (1 : Fin 2) * 1024 + 1024; dsimp only at e31; omega

end

end Cert.KernelIdeal.Layer

end
-- ==== Proof.KI.Cases1.lean ====
import proofs.«119758_j13554916786219_1_alg».proof.Proof.KI.Frame1
import proofs.«119758_j13554916786219_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 1: what each case leaves, as values

Case A leaves in the accumulator zero plus the point's product; cases B and C add the point's product to what the
point before left; case C then stores act (accumulator + bias) into the output block. Read at an entry (p, q) on the
extended reals, the product of two 1024-by-1024 blocks is Σ_k x(p,k) · w(k,q). -/

open Idealize.ShloMosaic.ValueIdx

theorem hz1 : (![0, 0] : Fin 2 → Nat) = fun _ => 0 := funext fun a => by fin_cases a <;> rfl

theorem soutA1_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    sout1_A_0 c i arg3 harg3 arg4 harg4 arg5 harg5 arg6 harg6 arg7 harg7 hc0 hc1 x0 x1 x2 = k1_pay2 (k1_pay1 (F := F)) x0 x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  try sl_unfold_words
  rw [View.canon_cons_unit_zero (S := S1024x1024) hz1, View.readCov_unit_zero (S := S1024x1024) _ hz1]
  simp only [View.readAt_eq_ld, harg3.read_unread, harg4.read_unread, View.ld_unit_zero (S := S1024x1024) hz1]

theorem soutB1_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) :
    sout1_B_0 c i arg3 harg3 arg4 harg4 arg5 harg5 arg6 harg6 arg7 harg7 hc0 hc1 x0 x1 x2 xs0 = k1_pay2 xs0 x0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  try sl_unfold_words
  rw [View.canon_unit_zero (S := S1024x1024) hz1]
  simp only [View.readAt_eq_ld, harg3.read_unread, harg4.read_unread, harg7.read_unread, View.ld_unit_zero (S := S1024x1024) hz1]

theorem soutC1_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    sout1_C_0 c i arg3 harg3 arg4 harg4 arg5 harg5 arg6 harg6 arg7 harg7 hc0 hc1 x0 x1 x2 xs0 = k1_pay2 xs0 x0 x1 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  try sl_unfold_words
  rw [View.canon_unit_zero (S := S1024x1024) hz1]
  simp only [View.readAt_eq_ld, harg3.read_unread, harg4.read_unread, harg7.read_unread, View.ld_unit_zero (S := S1024x1024) hz1]

theorem outC1_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    out1_C_3 c i arg3 harg3 arg4 harg4 arg5 harg5 arg6 harg6 arg7 harg7 hc0 hc1 x0 x1 x2 xs0 = k1_pay3 (k1_pay2 xs0 x0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  try sl_unfold_words
  rw [View.canon_unit_zero (S := S1024x1024) hz1, View.readCov_unit_zero (S := S1024x1024) _ hz1]
  simp only [View.readAt_eq_ld, harg3.read_unread, harg4.read_unread, harg5.read_unread, harg7.read_unread,
    View.ld_unit_zero (S := S1024x1024) hz1, View.ld_unit_zero (S := S1x1024) hz1]

/-! ## The three payloads at an entry, on the extended reals -/

theorem pay1_1_apply (p q : Fin 1024) : k1_pay1 (F := Ideal) (ix2 p q) = Cert.Mlp.zeroW := by
  unfold k1_pay1
  simp only [shapeCast_self]
  rfl

theorem dl0_1 (i : S1024x1024.Idx) (k : dot_S1024x1024_S1024x1024_S1024x1024_1_0_0_1_n_n.contr.Idx) : (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem dr1_1 (i : S1024x1024.Idx) (k : dot_S1024x1024_S1024x1024_S1024x1024_1_0_0_1_n_n.contr.Idx) : (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The accumulate step at an entry: the old value plus the row-by-column product of the two blocks. -/
theorem pay2_1_apply (acc : FVec Ideal S1024x1024 .f32) (x w : FVec Ideal S1024x1024 .bf16) (p q : Fin 1024) :
    k1_pay2 (F := Ideal) acc x w (ix2 p q) = acc (ix2 p q) + ∑ k : Fin 1024, x (ix2 p k) * w (ix2 k q) := by
  unfold k1_pay2
  simp only [shapeCast_self, matmul]
  refine congrArg (acc (ix2 p q) + ·) ?_
  refine (Ideal.matmul_constant_zero_apply dot_S1024x1024_S1024x1024_S1024x1024_1_0_0_1_n_n none x w (ix2 p q)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact dl0_1 _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (dot_S1024x1024_S1024x1024_S1024x1024_1_0_0_1_n_n.rhsIdx_val_of_single rfl _ _).trans hk
    | ⟨1, _⟩ => exact dr1_1 _ _)
  rw [el, er]

/-- The last step at an entry: the activation of accumulator plus bias. -/
theorem pay3_1_apply (acc : FVec Ideal S1024x1024 .f32) (b : FVec Ideal S1x1024 .f32) (p q : Fin 1024) :
    k1_pay3 (F := Ideal) acc b (ix2 p q) = Cert.Mlp.relu (acc (ix2 p q) + b (ix2 0 q)) := by
  unfold k1_pay3
  simp only [shapeCast_self]
  have hb : broadcastTo S1024x1024 b broadcasts_S1x1024_S1024x1024 (ix2 p q) = b (ix2 0 q) :=
    broadcastTo_apply b _ (ix2 p q) (ix2 0 q) (fun a => by
      match a with
      | ⟨0, _⟩ => rfl
      | ⟨1, _⟩ => rfl)
  show max (acc (ix2 p q) + broadcastTo S1024x1024 b broadcasts_S1x1024_S1024x1024 (ix2 p q)) (Ideal.ofBits .f32 0x00000000#32) = _
  rw [hb]
  rfl

end Cert.KernelIdeal.Layer

end
-- ==== Proof.KI.Value1.lean ====
import proofs.«119758_j13554916786219_1_alg».proof.Proof.KI.Cases1

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 1: the output array after the region is the dense layer of the arrays the region reads

The output block (I, J) is written back once, at the last of the four points that share (I, J); by then the accumulator
holds zero plus the four products of the row blocks (I, b) of the input with the column blocks (b, J) of the weights,
b = 0, 1, 2, 3, added in that order: the whole row-by-column product over 4096 positions. The blocks tile the array. -/

open Idealize.ShloMosaic.ValueIdx

/-- The printed index maps in closed form, decided over the grid. -/
theorem idx1 : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

section
variable (V : (c : Dev nD) → (b : Ref sig .tc) → Buf (Elt Ideal) ((c : Thread nD τ).loc b))

/-- The point's product at an entry: a row of its input block against a column of its weight block. -/
def prod1 (c : Dev nD) (t : Fin cfg1.N) (p q : Fin 1024) : EReal :=
  Cert.Mlp.blockProd (iblk1 V c 0 t) (iblk1 V c 1 t) p q

theorem acc1_A (c : Dev nD) (t : Fin cfg1.N) (h0 : t.val % 4 = 0) (p q : Fin 1024) :
    (outsAt1 V c t.val t.isLt).2 (ix2 p q) = Cert.Mlp.zeroW + prod1 V c t p q := by
  have h1 : ¬t.val % 4 = 3 := by omega
  rw [outsAt1_A V c t h0 h1]
  dsimp only
  rw [soutA1_eq, pay2_1_apply, pay1_1_apply]
  rfl

theorem acc1_B (c : Dev nD) (t : Fin cfg1.N) (h0 : ¬t.val % 4 = 0) (h1 : ¬t.val % 4 = 3) (p q : Fin 1024) :
    (outsAt1 V c t.val t.isLt).2 (ix2 p q)
      = (outsAt1 V c (t.val - 1) (Nat.lt_of_le_of_lt (Nat.sub_le _ _) t.isLt)).2 (ix2 p q) + prod1 V c t p q := by
  rw [outsAt1_B V c t h0 h1]
  dsimp only
  rw [soutB1_eq, pay2_1_apply]
  rfl

theorem acc1_C (c : Dev nD) (t : Fin cfg1.N) (h0 : ¬t.val % 4 = 0) (h1 : t.val % 4 = 3) (p q : Fin 1024) :
    (outsAt1 V c t.val t.isLt).2 (ix2 p q)
      = (outsAt1 V c (t.val - 1) (Nat.lt_of_le_of_lt (Nat.sub_le _ _) t.isLt)).2 (ix2 p q) + prod1 V c t p q := by
  rw [outsAt1_C V c t h0 h1]
  dsimp only
  rw [soutC1_eq, pay2_1_apply]
  rfl

theorem out1_C (c : Dev nD) (t : Fin cfg1.N) (h0 : ¬t.val % 4 = 0) (h1 : t.val % 4 = 3) (p q : Fin 1024) :
    (outsAt1 V c t.val t.isLt).1 (ix2 p q)
      = Cert.Mlp.relu ((outsAt1 V c t.val t.isLt).2 (ix2 p q) + (iblk1 V c 2 t : Cert.Mlp.Mat 1 1024) (ix2 0 q)) := by
  rw [outsAt1_C V c t h0 h1]
  dsimp only
  rw [outC1_eq, soutC1_eq, pay3_1_apply]

/-- At the last of four points sharing an output block the accumulator holds zero plus the four points' products,
    added in the points' order. -/
theorem acc1_last (c : Dev nD) (t : Fin cfg1.N) (h3 : t.val % 4 = 3) (p q : Fin 1024) :
    (outsAt1 V c t.val t.isLt).2 (ix2 p q)
      = (((Cert.Mlp.zeroW + prod1 V c ⟨t.val - 1 - 1 - 1, Nat.lt_of_le_of_lt (show t.val - 1 - 1 - 1 ≤ t.val by omega) t.isLt⟩ p q)
          + prod1 V c ⟨t.val - 1 - 1, Nat.lt_of_le_of_lt (show t.val - 1 - 1 ≤ t.val by omega) t.isLt⟩ p q)
          + prod1 V c ⟨t.val - 1, Nat.lt_of_le_of_lt (show t.val - 1 ≤ t.val by omega) t.isLt⟩ p q)
          + prod1 V c t p q := by
  rw [acc1_C V c t (by omega) h3 p q]
  rw [acc1_B V c ⟨t.val - 1, Nat.lt_of_le_of_lt (show t.val - 1 ≤ t.val by omega) t.isLt⟩ (by first | rfl | omega | (dsimp only; omega)) (by first | rfl | omega | (dsimp only; omega)) p q]
  rw [acc1_B V c ⟨t.val - 1 - 1, Nat.lt_of_le_of_lt (show t.val - 1 - 1 ≤ t.val by omega) t.isLt⟩ (by first | rfl | omega | (dsimp only; omega)) (by first | rfl | omega | (dsimp only; omega)) p q]
  rw [acc1_A V c ⟨t.val - 1 - 1 - 1, Nat.lt_of_le_of_lt (show t.val - 1 - 1 - 1 ≤ t.val by omega) t.isLt⟩ (by first | rfl | omega | (dsimp only; omega)) p q]

/-- A point's product is a stretch of 1024 positions of the whole row-by-column product: the point's blocks are blocks
    (I, b) of the input array and (b, J) of the weight array. -/
theorem prod1_eq (c : Dev nD) (s : Fin cfg1.N) (p q : Fin 1024) (i : Fin 8192) (j : Fin 4096) (b : Fin 4)
    (hi : i.val = 1024 * (s.val / 16) + p.val) (hj : j.val = 1024 * (s.val / 4 % 4) + q.val) (hb : b.val = s.val % 4) :
    prod1 V c s p q = Cert.Mlp.blockSum (V c main_v28) (V c main_v15) i j b := by
  obtain ⟨e00, e01, e10, e11, -, -, -, -⟩ := idx1 s
  unfold prod1 Cert.Mlp.blockProd Cert.Mlp.blockSum
  refine Finset.sum_congr rfl fun k _ => ?_
  have hk : 1024 * b.val + k.val < 4096 := by omega
  have hx : iblk1 V c 0 s (ix2 p k) = V c main_v28 (ix2 i (⟨1024 * b.val + k.val, hk⟩ : Fin 4096)) := by
    show V c main_v28 (((cfg1.win 0).blk s).view.emb (ix2 p k)) = _
    refine congrArg (V c main_v28) (funext fun a => Fin.ext ?_)
    match a with
    | ⟨0, _⟩ => show win1_0.index s (0 : Fin 2) * 1024 + 1 * p.val = i.val; omega
    | ⟨1, _⟩ => show win1_0.index s (1 : Fin 2) * 1024 + 1 * k.val = 1024 * b.val + k.val; omega
  have hw : iblk1 V c 1 s (ix2 k q) = V c main_v15 (ix2 (⟨1024 * b.val + k.val, hk⟩ : Fin 4096) j) := by
    show V c main_v15 (((cfg1.win 1).blk s).view.emb (ix2 k q)) = _
    refine congrArg (V c main_v15) (funext fun a => Fin.ext ?_)
    match a with
    | ⟨0, _⟩ => show win1_1.index s (0 : Fin 2) * 1024 + 1 * k.val = 1024 * b.val + k.val; omega
    | ⟨1, _⟩ => show win1_1.index s (1 : Fin 2) * 1024 + 1 * q.val = j.val; omega
  exact congrArg₂ (fun (u v : EReal) => u * v) hx hw

/-- The layer's function of the arrays the region reads. -/
def G1 (c : Dev nD) : Cert.Mlp.Mat 8192 4096 :=
  Cert.Mlp.dense Cert.Mlp.relu (V c main_v28) (V c main_v15) (Cert.Mlp.biasRow (V c main_v25))

/-- WHAT A WRITING POINT WRITES BACK is its block of the layer's function. -/
theorem flushed1_eq (c : Dev nD) (t : Fin cfg1.N) (hf : (cfg1.win 3).flush t = true) :
    (dat1 V c).flushed 3 t = ((cfg1.win 3).blk t).view.read (Elt Ideal) (G1 V c) := by
  have h3 : t.val % 4 = 3 := (flush1_3 t).mp hf
  have hN : t.val < 128 := lt_of_lt_of_eq t.isLt (show cfg1.N = 128 from N_1)
  obtain ⟨-, -, -, -, e20, e21, e30, e31⟩ := idx1 t
  show (cfg1.win 3).cut (grid1.coords t) ((dat1 V c).after 3 t) = _
  rw [after1_3]
  funext y
  obtain ⟨p, q, rfl⟩ : ∃ (p q : Fin 1024), y = ix2 p q := ⟨y 0, y 1, eq_ix2 y⟩
  show (outsAt1 V c t.val t.isLt).1 (ix2 p q) = G1 V c (((cfg1.win 3).blk t).view.emb (ix2 p q))
  have hi : 1024 * (t.val / 16) + p.val < 8192 := by omega
  have hj : 1024 * (t.val / 4 % 4) + q.val < 4096 := by omega
  have hemb : ((cfg1.win 3).blk t).view.emb (ix2 p q) = ix2 (⟨1024 * (t.val / 16) + p.val, hi⟩ : Fin 8192) (⟨1024 * (t.val / 4 % 4) + q.val, hj⟩ : Fin 4096) := by
    funext a; apply Fin.ext
    match a with
    | ⟨0, _⟩ => show win1_3.index t (0 : Fin 2) * 1024 + 1 * p.val = 1024 * (t.val / 16) + p.val; omega
    | ⟨1, _⟩ => show win1_3.index t (1 : Fin 2) * 1024 + 1 * q.val = 1024 * (t.val / 4 % 4) + q.val; omega
  have hb : (iblk1 V c 2 t : Cert.Mlp.Mat 1 1024) (ix2 0 q)
      = (V c main_v25 : Cert.Mlp.Mat 1 4096) (ix2 0 (⟨1024 * (t.val / 4 % 4) + q.val, hj⟩ : Fin 4096)) := by
    show V c main_v25 (((cfg1.win 2).blk t).view.emb (ix2 0 q)) = _
    refine congrArg (V c main_v25) (funext fun a => Fin.ext ?_)
    match a with
    | ⟨0, _⟩ => show win1_2.index t (0 : Fin 2) * 1 + 1 * 0 = 0; omega
    | ⟨1, _⟩ => show win1_2.index t (1 : Fin 2) * 1024 + 1 * q.val = 1024 * (t.val / 4 % 4) + q.val; omega
  rw [hemb, out1_C V c t (by omega) h3 p q, acc1_last V c t h3 p q, hb]
  unfold G1
  rw [Cert.Mlp.dense_blocks]
  rw [prod1_eq V c ⟨t.val - 1 - 1 - 1, Nat.lt_of_le_of_lt (show t.val - 1 - 1 - 1 ≤ t.val by omega) t.isLt⟩ p q ⟨_, hi⟩ ⟨_, hj⟩ 0 (by first | rfl | omega | (dsimp only; omega)) (by first | rfl | omega | (dsimp only; omega)) (by first | rfl | omega | (dsimp only; omega)),
    prod1_eq V c ⟨t.val - 1 - 1, Nat.lt_of_le_of_lt (show t.val - 1 - 1 ≤ t.val by omega) t.isLt⟩ p q ⟨_, hi⟩ ⟨_, hj⟩ 1 (by first | rfl | omega | (dsimp only; omega)) (by first | rfl | omega | (dsimp only; omega)) (by first | rfl | omega | (dsimp only; omega)),
    prod1_eq V c ⟨t.val - 1, Nat.lt_of_le_of_lt (show t.val - 1 ≤ t.val by omega) t.isLt⟩ p q ⟨_, hi⟩ ⟨_, hj⟩ 2 (by first | rfl | omega | (dsimp only; omega)) (by first | rfl | omega | (dsimp only; omega)) (by first | rfl | omega | (dsimp only; omega)),
    prod1_eq V c t p q ⟨_, hi⟩ ⟨_, hj⟩ 3 (by first | rfl | omega | (dsimp only; omega)) (by first | rfl | omega | (dsimp only; omega)) (by first | rfl | omega | (dsimp only; omega))]

/-- An index of the output array is in point `t`'s block iff each coordinate is in the block's range on its axis. -/
theorem mem_blk1 (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v29).slice (win1_3.rect t)).set ↔ _
  rw [View.set_slice_whole, Rect.mem_set_unit]
  exact Iff.rfl

/-- THE LAYER: after the region its output array holds the dense layer of the arrays the region read. -/
theorem layer1_value (c : Dev nD) : (dat1 V c).arrAt 3 cfg1.N = G1 V c :=
  (dat1 V c).arrAt_eq_of_cover 3 (G1 V c) (flushed1_eq V c) fun i => by
    have hi0 : (i 0).val < 8192 := (i 0).isLt
    have hi1 : (i 1).val < 4096 := (i 1).isLt
    have hlt : 16 * ((i 0).val / 1024) + 4 * ((i 1).val / 1024) + 3 < cfg1.N := by rw [show cfg1.N = 128 from N_1]; omega
    obtain ⟨-, -, -, -, -, -, e30, e31⟩ := idx1 ⟨16 * ((i 0).val / 1024) + 4 * ((i 1).val / 1024) + 3, hlt⟩
    refine ⟨⟨16 * ((i 0).val / 1024) + 4 * ((i 1).val / 1024) + 3, hlt⟩, (flush1_3 _).mpr (by first | rfl | omega | (dsimp only; omega)), ?_⟩
    rw [mem_blk1]
    intro a
    match a with
    | ⟨0, _⟩ => show win1_3.index ⟨16 * ((i 0).val / 1024) + 4 * ((i 1).val / 1024) + 3, hlt⟩ (0 : Fin 2) * 1024 ≤ (i 0).val ∧ (i 0).val < win1_3.index ⟨16 * ((i 0).val / 1024) + 4 * ((i 1).val / 1024) + 3, hlt⟩ (0 : Fin 2) * 1024 + 1024; dsimp only at e30; omega
    | ⟨1, _⟩ => show win1_3.index ⟨16 * ((i 0).val / 1024) + 4 * ((i 1).val / 1024) + 3, hlt⟩ (1 : Fin 2) * 1024 ≤ (i 1).val ∧ (i 1).val < win1_3.index ⟨16 * ((i 0).val / 1024) + 4 * ((i 1).val / 1024) + 3, hlt⟩ (1 : Fin 2) * 1024 + 1024; dsimp only at e31; omega

end

end Cert.KernelIdeal.Layer

end
-- ==== Proof.KI.Cases2.lean ====
import proofs.«119758_j13554916786219_1_alg».proof.Proof.KI.Frame2
import proofs.«119758_j13554916786219_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 2: what each case leaves, as values

Case A leaves in the accumulator zero plus the point's product; cases B and C add the point's product to what the
point before left; case C then stores act (accumulator + bias) into the output block. Read at an entry (p, q) on the
extended reals, the product of two 1024-by-1024 blocks is Σ_k x(p,k) · w(k,q). -/

open Idealize.ShloMosaic.ValueIdx

theorem hz2 : (![0, 0] : Fin 2 → Nat) = fun _ => 0 := funext fun a => by fin_cases a <;> rfl

theorem soutA2_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond2_0 i) (hc1 : ¬cond2_1 i)
    (x0 : Vec F S1024x1024 .bf16) (x1 : Vec F S1024x1024 .bf16) (x2 : Vec F S1x1024 .f32) :
    sout2_A_0 c i arg3 harg3 arg4 harg4 arg5 harg5 arg6 harg6 arg7 harg7 hc0 hc1 x0 x1 x2 = k2_pay2 (k2_pay1 (F := F)) x0 x1 := by
  unfold sout2_A_0
  rw [View.read_writes_eq_canon _ _ _ (scover2_A_0 c i arg3 harg3 arg4 harg4 arg5 harg5 arg6 harg6 arg7 harg7 hc0 hc1 x0 x1 x2)]
  unfold kernelRun2_A
  dsimp only
  try sl_unfold_words
  rw [View.canon_cons_unit_zero (S := S1024x1024) hz2, View.readCov_unit_zero (S := S1024x1024) _ hz2]
  simp only [View.readAt_eq_ld, harg3.read_unread, harg4.read_unread, View.ld_unit_zero (S := S1024x1024) hz2]

theorem soutB2_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : ¬cond2_1 i)
    (x0 : Vec F S1024x1024 .bf16) (x1 : Vec F S1024x1024 .bf16) (x2 : Vec F S1x1024 .f32) (xs0 : Vec F S1024x1024 .f32) :
    sout2_B_0 c i arg3 harg3 arg4 harg4 arg5 harg5 arg6 harg6 arg7 harg7 hc0 hc1 x0 x1 x2 xs0 = k2_pay2 xs0 x0 x1 := by
  unfold sout2_B_0
  rw [View.read_writes_eq_canon _ _ _ (scover2_B_0 c i arg3 harg3 arg4 harg4 arg5 harg5 arg6 harg6 arg7 harg7 hc0 hc1 x0 x1 x2 xs0)]
  unfold kernelRun2_B
  dsimp only
  try sl_unfold_words
  rw [View.canon_unit_zero (S := S1024x1024) hz2]
  simp only [View.readAt_eq_ld, harg3.read_unread, harg4.read_unread, harg7.read_unread, View.ld_unit_zero (S := S1024x1024) hz2]

theorem soutC2_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) :
    sout2_C_0 c i arg3 harg3 arg4 harg4 arg5 harg5 arg6 harg6 arg7 harg7 hc0 hc1 x0 x1 x2 xs0 = k2_pay2 xs0 x0 x1 := by
  unfold sout2_C_0
  rw [View.read_writes_eq_canon _ _ _ (scover2_C_0 c i arg3 harg3 arg4 harg4 arg5 harg5 arg6 harg6 arg7 harg7 hc0 hc1 x0 x1 x2 xs0)]
  unfold kernelRun2_C
  dsimp only
  try sl_unfold_words
  rw [View.canon_unit_zero (S := S1024x1024) hz2]
  simp only [View.readAt_eq_ld, harg3.read_unread, harg4.read_unread, harg7.read_unread, View.ld_unit_zero (S := S1024x1024) hz2]

theorem outC2_eq (c : Dev nD) (i : grid2.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond2_0 i) (hc1 : cond2_1 i)
    (x0 : Vec F S1024x1024 .bf16) (x1 : Vec F S1024x1024 .bf16) (x2 : Vec F S1x1024 .f32) (xs0 : Vec F S1024x1024 .f32) :
    out2_C_3 c i arg3 harg3 arg4 harg4 arg5 harg5 arg6 harg6 arg7 harg7 hc0 hc1 x0 x1 x2 xs0 = k2_pay3 (k2_pay2 xs0 x0 x1) x2 := by
  unfold out2_C_3
  rw [View.read_writes_eq_canon _ _ _ (cover2_C_3 c i arg3 harg3 arg4 harg4 arg5 harg5 arg6 harg6 arg7 harg7 hc0 hc1 x0 x1 x2 xs0)]
  unfold kernelRun2_C
  dsimp only
  try sl_unfold_words
  rw [View.canon_unit_zero (S := S1024x1024) hz2, View.readCov_unit_zero (S := S1024x1024) _ hz2]
  simp only [View.readAt_eq_ld, harg3.read_unread, harg4.read_unread, harg5.read_unread, harg7.read_unread,
    View.ld_unit_zero (S := S1024x1024) hz2, View.ld_unit_zero (S := S1x1024) hz2]

/-! ## The three payloads at an entry, on the extended reals -/

theorem pay1_2_apply (p q : Fin 1024) : k2_pay1 (F := Ideal) (ix2 p q) = Cert.Mlp.zeroW := by
  unfold k2_pay1
  simp only [shapeCast_self]
  rfl

theorem dl0_2 (i : S1024x1024.Idx) (k : dot_S1024x1024_S1024x1024_S1024x1024_1_0_0_1_n_n.contr.Idx) : (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem dr1_2 (i : S1024x1024.Idx) (k : dot_S1024x1024_S1024x1024_S1024x1024_1_0_0_1_n_n.contr.Idx) : (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The accumulate step at an entry: the old value plus the row-by-column product of the two blocks. -/
theorem pay2_2_apply (acc : FVec Ideal S1024x1024 .f32) (x w : FVec Ideal S1024x1024 .bf16) (p q : Fin 1024) :
    k2_pay2 (F := Ideal) acc x w (ix2 p q) = acc (ix2 p q) + ∑ k : Fin 1024, x (ix2 p k) * w (ix2 k q) := by
  unfold k2_pay2
  simp only [shapeCast_self, matmul]
  refine congrArg (acc (ix2 p q) + ·) ?_
  refine (Ideal.matmul_constant_zero_apply dot_S1024x1024_S1024x1024_S1024x1024_1_0_0_1_n_n none x w (ix2 p q)).trans ?_
  rw [← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact dl0_2 _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (dot_S1024x1024_S1024x1024_S1024x1024_1_0_0_1_n_n.rhsIdx_val_of_single rfl _ _).trans hk
    | ⟨1, _⟩ => exact dr1_2 _ _)
  rw [el, er]

/-- The last step at an entry: the activation of accumulator plus bias. -/
theorem pay3_2_apply (acc : FVec Ideal S1024x1024 .f32) (b : FVec Ideal S1x1024 .f32) (p q : Fin 1024) :
    k2_pay3 (F := Ideal) acc b (ix2 p q) = Ideal.logistic (acc (ix2 p q) + b (ix2 0 q)) := by
  unfold k2_pay3
  simp only [shapeCast_self]
  have hb : broadcastTo S1024x1024 b broadcasts_S1x1024_S1024x1024 (ix2 p q) = b (ix2 0 q) :=
    broadcastTo_apply b _ (ix2 p q) (ix2 0 q) (fun a => by
      match a with
      | ⟨0, _⟩ => rfl
      | ⟨1, _⟩ => rfl)
  show Ideal.logistic (acc (ix2 p q) + broadcastTo S1024x1024 b broadcasts_S1x1024_S1024x1024 (ix2 p q)) = _
  rw [hb]

end Cert.KernelIdeal.Layer

end
-- ==== Proof.KI.Value2.lean ====
import proofs.«119758_j13554916786219_1_alg».proof.Proof.KI.Cases2

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 2: the output array after the region is the dense layer of the arrays the region reads

The output block (I, J) is written back once, at the last of the four points that share (I, J); by then the accumulator
holds zero plus the four products of the row blocks (I, b) of the input with the column blocks (b, J) of the weights,
b = 0, 1, 2, 3, added in that order: the whole row-by-column product over 4096 positions. The blocks tile the array. -/

open Idealize.ShloMosaic.ValueIdx

/-- The printed index maps in closed form, decided over the grid. -/
theorem idx2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = t.val / 4 ∧ win2_3.index t (1 : Fin 2) = 0 :=
  (by decide +kernel : ∀ t : Fin grid2.N, _)

section
variable (V : (c : Dev nD) → (b : Ref sig .tc) → Buf (Elt Ideal) ((c : Thread nD τ).loc b))

/-- The point's product at an entry: a row of its input block against a column of its weight block. -/
def prod2 (c : Dev nD) (t : Fin cfg2.N) (p q : Fin 1024) : EReal :=
  Cert.Mlp.blockProd (iblk2 V c 0 t) (iblk2 V c 1 t) p q

theorem acc2_A (c : Dev nD) (t : Fin cfg2.N) (h0 : t.val % 4 = 0) (p q : Fin 1024) :
    (outsAt2 V c t.val t.isLt).2 (ix2 p q) = Cert.Mlp.zeroW + prod2 V c t p q := by
  have h1 : ¬t.val % 4 = 3 := by omega
  rw [outsAt2_A V c t h0 h1]
  dsimp only
  rw [soutA2_eq, pay2_2_apply, pay1_2_apply]
  rfl

theorem acc2_B (c : Dev nD) (t : Fin cfg2.N) (h0 : ¬t.val % 4 = 0) (h1 : ¬t.val % 4 = 3) (p q : Fin 1024) :
    (outsAt2 V c t.val t.isLt).2 (ix2 p q)
      = (outsAt2 V c (t.val - 1) (Nat.lt_of_le_of_lt (Nat.sub_le _ _) t.isLt)).2 (ix2 p q) + prod2 V c t p q := by
  rw [outsAt2_B V c t h0 h1]
  dsimp only
  rw [soutB2_eq, pay2_2_apply]
  rfl

theorem acc2_C (c : Dev nD) (t : Fin cfg2.N) (h0 : ¬t.val % 4 = 0) (h1 : t.val % 4 = 3) (p q : Fin 1024) :
    (outsAt2 V c t.val t.isLt).2 (ix2 p q)
      = (outsAt2 V c (t.val - 1) (Nat.lt_of_le_of_lt (Nat.sub_le _ _) t.isLt)).2 (ix2 p q) + prod2 V c t p q := by
  rw [outsAt2_C V c t h0 h1]
  dsimp only
  rw [soutC2_eq, pay2_2_apply]
  rfl

theorem out2_C (c : Dev nD) (t : Fin cfg2.N) (h0 : ¬t.val % 4 = 0) (h1 : t.val % 4 = 3) (p q : Fin 1024) :
    (outsAt2 V c t.val t.isLt).1 (ix2 p q)
      = Ideal.logistic ((outsAt2 V c t.val t.isLt).2 (ix2 p q) + (iblk2 V c 2 t : Cert.Mlp.Mat 1 1024) (ix2 0 q)) := by
  rw [outsAt2_C V c t h0 h1]
  dsimp only
  rw [outC2_eq, soutC2_eq, pay3_2_apply]

/-- At the last of four points sharing an output block the accumulator holds zero plus the four points' products,
    added in the points' order. -/
theorem acc2_last (c : Dev nD) (t : Fin cfg2.N) (h3 : t.val % 4 = 3) (p q : Fin 1024) :
    (outsAt2 V c t.val t.isLt).2 (ix2 p q)
      = (((Cert.Mlp.zeroW + prod2 V c ⟨t.val - 1 - 1 - 1, Nat.lt_of_le_of_lt (show t.val - 1 - 1 - 1 ≤ t.val by omega) t.isLt⟩ p q)
          + prod2 V c ⟨t.val - 1 - 1, Nat.lt_of_le_of_lt (show t.val - 1 - 1 ≤ t.val by omega) t.isLt⟩ p q)
          + prod2 V c ⟨t.val - 1, Nat.lt_of_le_of_lt (show t.val - 1 ≤ t.val by omega) t.isLt⟩ p q)
          + prod2 V c t p q := by
  rw [acc2_C V c t (by omega) h3 p q]
  rw [acc2_B V c ⟨t.val - 1, Nat.lt_of_le_of_lt (show t.val - 1 ≤ t.val by omega) t.isLt⟩ (by first | rfl | omega | (dsimp only; omega)) (by first | rfl | omega | (dsimp only; omega)) p q]
  rw [acc2_B V c ⟨t.val - 1 - 1, Nat.lt_of_le_of_lt (show t.val - 1 - 1 ≤ t.val by omega) t.isLt⟩ (by first | rfl | omega | (dsimp only; omega)) (by first | rfl | omega | (dsimp only; omega)) p q]
  rw [acc2_A V c ⟨t.val - 1 - 1 - 1, Nat.lt_of_le_of_lt (show t.val - 1 - 1 - 1 ≤ t.val by omega) t.isLt⟩ (by first | rfl | omega | (dsimp only; omega)) p q]

/-- A point's product is a stretch of 1024 positions of the whole row-by-column product: the point's blocks are blocks
    (I, b) of the input array and (b, J) of the weight array. -/
theorem prod2_eq (c : Dev nD) (s : Fin cfg2.N) (p q : Fin 1024) (i : Fin 8192) (j : Fin 1024) (b : Fin 4)
    (hi : i.val = 1024 * (s.val / 4) + p.val) (hj : j.val = 1024 * (0) + q.val) (hb : b.val = s.val % 4) :
    prod2 V c s p q = Cert.Mlp.blockSum (V c main_v29) (V c main_v23) i j b := by
  obtain ⟨e00, e01, e10, e11, -, -, -, -⟩ := idx2 s
  unfold prod2 Cert.Mlp.blockProd Cert.Mlp.blockSum
  refine Finset.sum_congr rfl fun k _ => ?_
  have hk : 1024 * b.val + k.val < 4096 := by omega
  have hx : iblk2 V c 0 s (ix2 p k) = V c main_v29 (ix2 i (⟨1024 * b.val + k.val, hk⟩ : Fin 4096)) := by
    show V c main_v29 (((cfg2.win 0).blk s).view.emb (ix2 p k)) = _
    refine congrArg (V c main_v29) (funext fun a => Fin.ext ?_)
    match a with
    | ⟨0, _⟩ => show win2_0.index s (0 : Fin 2) * 1024 + 1 * p.val = i.val; omega
    | ⟨1, _⟩ => show win2_0.index s (1 : Fin 2) * 1024 + 1 * k.val = 1024 * b.val + k.val; omega
  have hw : iblk2 V c 1 s (ix2 k q) = V c main_v23 (ix2 (⟨1024 * b.val + k.val, hk⟩ : Fin 4096) j) := by
    show V c main_v23 (((cfg2.win 1).blk s).view.emb (ix2 k q)) = _
    refine congrArg (V c main_v23) (funext fun a => Fin.ext ?_)
    match a with
    | ⟨0, _⟩ => show win2_1.index s (0 : Fin 2) * 1024 + 1 * k.val = 1024 * b.val + k.val; omega
    | ⟨1, _⟩ => show win2_1.index s (1 : Fin 2) * 1024 + 1 * q.val = j.val; omega
  exact congrArg₂ (fun (u v : EReal) => u * v) hx hw

/-- The layer's function of the arrays the region reads. -/
def G2 (c : Dev nD) : Cert.Mlp.Mat 8192 1024 :=
  Cert.Mlp.dense Ideal.logistic (V c main_v29) (V c main_v23) (Cert.Mlp.biasRow (V c main_v26))

/-- WHAT A WRITING POINT WRITES BACK is its block of the layer's function. -/
theorem flushed2_eq (c : Dev nD) (t : Fin cfg2.N) (hf : (cfg2.win 3).flush t = true) :
    (dat2 V c).flushed 3 t = ((cfg2.win 3).blk t).view.read (Elt Ideal) (G2 V c) := by
  have h3 : t.val % 4 = 3 := (flush2_3 t).mp hf
  have hN : t.val < 32 := lt_of_lt_of_eq t.isLt (show cfg2.N = 32 from N_2)
  obtain ⟨-, -, -, -, e20, e21, e30, e31⟩ := idx2 t
  show (cfg2.win 3).cut (grid2.coords t) ((dat2 V c).after 3 t) = _
  rw [after2_3]
  funext y
  obtain ⟨p, q, rfl⟩ : ∃ (p q : Fin 1024), y = ix2 p q := ⟨y 0, y 1, eq_ix2 y⟩
  show (outsAt2 V c t.val t.isLt).1 (ix2 p q) = G2 V c (((cfg2.win 3).blk t).view.emb (ix2 p q))
  have hi : 1024 * (t.val / 4) + p.val < 8192 := by omega
  have hj : 1024 * (0) + q.val < 1024 := by omega
  have hemb : ((cfg2.win 3).blk t).view.emb (ix2 p q) = ix2 (⟨1024 * (t.val / 4) + p.val, hi⟩ : Fin 8192) (⟨1024 * (0) + q.val, hj⟩ : Fin 1024) := by
    funext a; apply Fin.ext
    match a with
    | ⟨0, _⟩ => show win2_3.index t (0 : Fin 2) * 1024 + 1 * p.val = 1024 * (t.val / 4) + p.val; omega
    | ⟨1, _⟩ => show win2_3.index t (1 : Fin 2) * 1024 + 1 * q.val = 1024 * (0) + q.val; omega
  have hb : (iblk2 V c 2 t : Cert.Mlp.Mat 1 1024) (ix2 0 q)
      = (V c main_v26 : Cert.Mlp.Mat 1 1024) (ix2 0 (⟨1024 * (0) + q.val, hj⟩ : Fin 1024)) := by
    show V c main_v26 (((cfg2.win 2).blk t).view.emb (ix2 0 q)) = _
    refine congrArg (V c main_v26) (funext fun a => Fin.ext ?_)
    match a with
    | ⟨0, _⟩ => show win2_2.index t (0 : Fin 2) * 1 + 1 * 0 = 0; omega
    | ⟨1, _⟩ => show win2_2.index t (1 : Fin 2) * 1024 + 1 * q.val = 1024 * (0) + q.val; omega
  rw [hemb, out2_C V c t (by omega) h3 p q, acc2_last V c t h3 p q, hb]
  unfold G2
  rw [Cert.Mlp.dense_blocks]
  rw [prod2_eq V c ⟨t.val - 1 - 1 - 1, Nat.lt_of_le_of_lt (show t.val - 1 - 1 - 1 ≤ t.val by omega) t.isLt⟩ p q ⟨_, hi⟩ ⟨_, hj⟩ 0 (by first | rfl | omega | (dsimp only; omega)) (by first | rfl | omega | (dsimp only; omega)) (by first | rfl | omega | (dsimp only; omega)),
    prod2_eq V c ⟨t.val - 1 - 1, Nat.lt_of_le_of_lt (show t.val - 1 - 1 ≤ t.val by omega) t.isLt⟩ p q ⟨_, hi⟩ ⟨_, hj⟩ 1 (by first | rfl | omega | (dsimp only; omega)) (by first | rfl | omega | (dsimp only; omega)) (by first | rfl | omega | (dsimp only; omega)),
    prod2_eq V c ⟨t.val - 1, Nat.lt_of_le_of_lt (show t.val - 1 ≤ t.val by omega) t.isLt⟩ p q ⟨_, hi⟩ ⟨_, hj⟩ 2 (by first | rfl | omega | (dsimp only; omega)) (by first | rfl | omega | (dsimp only; omega)) (by first | rfl | omega | (dsimp only; omega)),
    prod2_eq V c t p q ⟨_, hi⟩ ⟨_, hj⟩ 3 (by first | rfl | omega | (dsimp only; omega)) (by first | rfl | omega | (dsimp only; omega)) (by first | rfl | omega | (dsimp only; omega))]

/-- An index of the output array is in point `t`'s block iff each coordinate is in the block's range on its axis. -/
theorem mem_blk2 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v30).slice (win2_3.rect t)).set ↔ _
  rw [View.set_slice_whole, Rect.mem_set_unit]
  exact Iff.rfl

/-- THE LAYER: after the region its output array holds the dense layer of the arrays the region read. -/
theorem layer2_value (c : Dev nD) : (dat2 V c).arrAt 3 cfg2.N = G2 V c :=
  (dat2 V c).arrAt_eq_of_cover 3 (G2 V c) (flushed2_eq V c) fun i => by
    have hi0 : (i 0).val < 8192 := (i 0).isLt
    have hi1 : (i 1).val < 1024 := (i 1).isLt
    have hlt : 4 * ((i 0).val / 1024) + 3 < cfg2.N := by rw [show cfg2.N = 32 from N_2]; omega
    obtain ⟨-, -, -, -, -, -, e30, e31⟩ := idx2 ⟨4 * ((i 0).val / 1024) + 3, hlt⟩
    refine ⟨⟨4 * ((i 0).val / 1024) + 3, hlt⟩, (flush2_3 _).mpr (by first | rfl | omega | (dsimp only; omega)), ?_⟩
    rw [mem_blk2]
    intro a
    match a with
    | ⟨0, _⟩ => show win2_3.index ⟨4 * ((i 0).val / 1024) + 3, hlt⟩ (0 : Fin 2) * 1024 ≤ (i 0).val ∧ (i 0).val < win2_3.index ⟨4 * ((i 0).val / 1024) + 3, hlt⟩ (0 : Fin 2) * 1024 + 1024; dsimp only at e30; omega
    | ⟨1, _⟩ => show win2_3.index ⟨4 * ((i 0).val / 1024) + 3, hlt⟩ (1 : Fin 2) * 1024 ≤ (i 1).val ∧ (i 1).val < win2_3.index ⟨4 * ((i 0).val / 1024) + 3, hlt⟩ (1 : Fin 2) * 1024 + 1024; dsimp only at e31; omega

end

end Cert.KernelIdeal.Layer

end
-- ==== Proof.KI.HostVals.lean ====
import proofs.«119758_j13554916786219_1_alg».proof.Proof.KI.Main
import proofs.«119758_j13554916786219_1_alg».proof.Proof.Gen.ReferenceIdeal.Read
import proofs.«119758_j13554916786219_1_alg».proof.Proof.Spec
import Idealize.ShloMosaic.Lib.StableHlo.Run
import Idealize.ShloMosaic.Lib.Pipeline.Value
import Idealize.ShloMosaic.Lib.ValueIdx
import Idealize.ShloMosaic.Lib.ValueLayout

/-!
# What the three layers find in their arrays

Before the first layer runs, the program prepares seven arrays from its arguments: the input and the three weight
matrices narrowed to a shorter format, and the three biases reshaped to one-row matrices. On the extended reals a
change of format is the identity, so the input is the input, each weight matrix is the transposed scaled sign of
its argument — made by the very operations the reference applies, which are never opened — and each bias row
reads the bias.
-/

set_option maxRecDepth 16384

noncomputable section

namespace Cert.KernelIdeal.HostVals

open Cert.KernelIdeal Cert.KernelIdeal.Gen Cert.KernelIdeal.Layer Idealize.ShloMosaic Idealize.ShloMosaic.TcCoe
  Idealize.ShloMosaic.ValueIdx Idealize.SL.Sem

variable (m : (ℓ : Loc nD τ sig) → Buf (Elt Ideal) ℓ) (ρ : Dev nD → PrngReg) (c : Dev nD)

/-- The input, narrowed to the shorter format, is the input: a change of format does nothing to an extended real. -/
theorem x_eq : (V1 m ρ c main_v27 : Cert.Mlp.Mat 8192 4096) = m ((c : Thread nD τ).loc main_arg0) := by
  show StableHlo.after hostOps0 (fun b => m (c, b)) (Proc.devRef .tc main_v27) = _
  after_results_simp
  rfl

/-- The first weights: the host operations that scale the signs by the mean magnitude and transpose are, one for
    one, the operations the reference applies to the same argument; the narrowing after them does nothing. -/
theorem wt1_eq : (V1 m ρ c main_v7 : Cert.Mlp.Mat 4096 4096) = Cert.ReferenceIdeal.Read.val_main_v6 (F := Ideal) (m ((c : Thread nD τ).loc main_arg1)) := by
  show StableHlo.after hostOps0 (fun b => m (c, b)) (Proc.devRef .tc main_v7) = _
  after_results_simp
  rfl

/-- The second weights, likewise. -/
theorem wt2_eq : (V1 m ρ c main_v15 : Cert.Mlp.Mat 4096 4096) = Cert.ReferenceIdeal.Read.val_main_v18 (F := Ideal) (m ((c : Thread nD τ).loc main_arg3)) := by
  show StableHlo.after hostOps0 (fun b => m (c, b)) (Proc.devRef .tc main_v15) = _
  after_results_simp
  rfl

/-- The third weights, likewise. -/
theorem wt3_eq : (V1 m ρ c main_v23 : Cert.Mlp.Mat 4096 1024) = Cert.ReferenceIdeal.Read.val_main_v30 (F := Ideal) (m ((c : Thread nD τ).loc main_arg5)) := by
  show StableHlo.after hostOps0 (fun b => m (c, b)) (Proc.devRef .tc main_v23) = _
  after_results_simp
  rfl

/-- The first bias as a one-row matrix reads, in its only row, the bias itself. -/
theorem b1_eq (q : Fin 4096) : (V1 m ρ c main_v24 : Cert.Mlp.Mat 1 4096) (ix2 0 q) = (m ((c : Thread nD τ).loc main_arg2) : Cert.Mlp.Vc 4096) (ix1 q) := by
  have e : (V1 m ρ c main_v24 : S1x4096.Idx → EReal) = shapeCast S1x4096 (m ((c : Thread nD τ).loc main_arg2) : S4096.Idx → EReal) shapeCasts_S4096_S1x4096 := by
    show StableHlo.after hostOps0 (fun b => m (c, b)) (Proc.devRef .tc main_v24) = _
    after_results_simp
    rfl
  exact (congrFun e (ix2 0 q)).trans (shapeCast_a_1a_apply _ _ 0 q)

/-- The second bias, likewise. -/
theorem b2_eq (q : Fin 4096) : (V1 m ρ c main_v25 : Cert.Mlp.Mat 1 4096) (ix2 0 q) = (m ((c : Thread nD τ).loc main_arg4) : Cert.Mlp.Vc 4096) (ix1 q) := by
  have e : (V1 m ρ c main_v25 : S1x4096.Idx → EReal) = shapeCast S1x4096 (m ((c : Thread nD τ).loc main_arg4) : S4096.Idx → EReal) shapeCasts_S4096_S1x4096 := by
    show StableHlo.after hostOps0 (fun b => m (c, b)) (Proc.devRef .tc main_v25) = _
    after_results_simp
    rfl
  exact (congrFun e (ix2 0 q)).trans (shapeCast_a_1a_apply _ _ 0 q)

/-- The third bias, likewise. -/
theorem b3_eq (q : Fin 1024) : (V1 m ρ c main_v26 : Cert.Mlp.Mat 1 1024) (ix2 0 q) = (m ((c : Thread nD τ).loc main_arg6) : Cert.Mlp.Vc 1024) (ix1 q) := by
  have e : (V1 m ρ c main_v26 : S1x1024.Idx → EReal) = shapeCast S1x1024 (m ((c : Thread nD τ).loc main_arg6) : S1024.Idx → EReal) shapeCasts_S1024_S1x1024 := by
    show StableHlo.after hostOps0 (fun b => m (c, b)) (Proc.devRef .tc main_v26) = _
    after_results_simp
    rfl
  exact (congrFun e (ix2 0 q)).trans (shapeCast_a_1a_apply _ _ 0 q)

end Cert.KernelIdeal.HostVals

end
-- ==== Proof.KI.Whole.lean ====
import proofs.«119758_j13554916786219_1_alg».proof.Proof.KI.Value0
import proofs.«119758_j13554916786219_1_alg».proof.Proof.KI.Value1
import proofs.«119758_j13554916786219_1_alg».proof.Proof.KI.Value2
import proofs.«119758_j13554916786219_1_alg».proof.Proof.KI.Main
import proofs.«119758_j13554916786219_1_alg».proof.Proof.KI.HostVals

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The result array of the whole program is the three-layer function of the arguments

Layer 2's output is the dense layer of layer 1's output, which is the dense layer of layer 0's output; the weight and
bias arrays each region reads were written by the host operations before the first region and are touched by no region. -/

open Idealize.ShloMosaic.ValueIdx Cert.KernelIdeal.HostVals

variable (m : (ℓ : Loc nD τ sig) → Buf (Elt Ideal) ℓ) (ρ : Dev nD → PrngReg)

theorem biasRow_eq {N : Nat} (B : Cert.Mlp.Mat 1 N) (b : Cert.Mlp.Vc N) (h : ∀ q : Fin N, B (ix2 0 q) = b (ix1 q)) :
    Cert.Mlp.biasRow B = b := by
  funext j
  obtain ⟨q, rfl⟩ : ∃ q : Fin N, j = ix1 q := ⟨j 0, eq_ix1 j⟩
  exact h q

theorem out_value (c : Dev nD) :
    (W4 m ρ c (Proc.devRef .tc main_v30) : Cert.Mlp.Mat 8192 1024)
      = Cert.Mlp.mlp (m ((c : Thread nD τ).loc main_arg0))
          (Cert.ReferenceIdeal.Read.val_main_v6 (F := Ideal) (m ((c : Thread nD τ).loc main_arg1))) (m ((c : Thread nD τ).loc main_arg2))
          (Cert.ReferenceIdeal.Read.val_main_v18 (F := Ideal) (m ((c : Thread nD τ).loc main_arg3))) (m ((c : Thread nD τ).loc main_arg4))
          (Cert.ReferenceIdeal.Read.val_main_v30 (F := Ideal) (m ((c : Thread nD τ).loc main_arg5))) (m ((c : Thread nD τ).loc main_arg6)) := by
  have l2 : W4 m ρ c (Proc.devRef .tc main_v30) = G2 (V3 m ρ) c := (W4_arr m ρ c 3).trans (layer2_value (V3 m ρ) c)
  have l1 : V3 m ρ c main_v29 = G1 (V2 m ρ) c := (W3_arr m ρ c 3).trans (layer1_value (V2 m ρ) c)
  have l0 : V2 m ρ c main_v28 = G0 (V1 m ρ) c := (W2_arr m ρ c 3).trans (layer0_value (V1 m ρ) c)
  have k23 : V3 m ρ c main_v23 = V1 m ρ c main_v23 := (W3_of_ne m ρ c main_v23 (by decide)).trans (W2_of_ne m ρ c main_v23 (by decide))
  have k26 : V3 m ρ c main_v26 = V1 m ρ c main_v26 := (W3_of_ne m ρ c main_v26 (by decide)).trans (W2_of_ne m ρ c main_v26 (by decide))
  have k15 : V2 m ρ c main_v15 = V1 m ρ c main_v15 := W2_of_ne m ρ c main_v15 (by decide)
  have k25 : V2 m ρ c main_v25 = V1 m ρ c main_v25 := W2_of_ne m ρ c main_v25 (by decide)
  rw [l2]
  unfold G2
  rw [l1, k23, k26]
  unfold G1
  rw [l0, k15, k25]
  unfold G0 Cert.Mlp.mlp
  rw [x_eq m ρ c, wt1_eq m ρ c, wt2_eq m ρ c, wt3_eq m ρ c,
    biasRow_eq _ _ (b1_eq m ρ c), biasRow_eq _ _ (b2_eq m ρ c), biasRow_eq _ _ (b3_eq m ρ c)]

end Cert.KernelIdeal.Layer

end
-- ==== Proof.RefIsMlp.lean ====
import proofs.«119758_j13554916786219_1_alg».proof.Proof.Gen.ReferenceIdeal.Read
import proofs.«119758_j13554916786219_1_alg».proof.Proof.Spec

/-!
# The reference computes the three-layer network

Each layer of the reference is read one element at a time: a contraction over 4096 positions of the layer's input
with its weights, the bias of the column added, and the activation applied. The weights stay the terms the
reference makes them (the transposed scaled signs); nothing about how they are made is used. The first two
activations are the maximum with the zero word; the last is one over one plus the exponential of the negated
sum, which is the logistic function by definition, the word 0x3F800000 being the number one.
-/

noncomputable section

namespace Cert.ReferenceIdeal.RefValue

open Cert.ReferenceIdeal Cert.ReferenceIdeal.Gen Idealize.ShloMosaic Idealize.ShloMosaic.ValueIdx
open Cert.ReferenceIdeal.Read

/-- The word 0x3F800000 is the number one. -/
theorem one_word : Ideal.ofBits .f32 0x3F800000#32 = 1 := by
  simp [Ideal.ofBits, Ideal.ieee, -EReal.coe_mul]; norm_num

/-- First layer: the rectified sum of products of the input with the first weights, plus the first bias. -/
theorem layer1
    (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v11 (F := Ideal) x0 x1 x2
      = Cert.Mlp.dense Cert.Mlp.relu x0 (val_main_v6 (F := Ideal) x1) x2 := by
  funext i
  obtain ⟨p, q, rfl⟩ : ∃ (p : Fin 8192) (q : Fin 4096), i = ix2 p q := ⟨i 0, i 1, eq_ix2 i⟩
  rw [val_main_v11_apply, val_main_v10_apply, val_main_v7_apply, val_main_v9_apply, val_main_v8_apply,
    val_main_call0_v0_apply, val_main_call0_cst_apply, Cert.Mlp.dense_apply]
  generalize val_main_v6 (F := Ideal) x1 = W
  have hl : ∀ k : Fin 4096, lidx_main_v7 (ix2 p q) k = ix2 p k := fun k => funext fun a => Fin.ext (by
    match a with | ⟨0, _⟩ => rfl | ⟨1, _⟩ => rfl)
  have hr : ∀ k : Fin 4096, ridx_main_v7 (ix2 p q) k = ix2 k q := fun k => funext fun a => Fin.ext (by
    match a with | ⟨0, _⟩ => rfl | ⟨1, _⟩ => rfl)
  have hb : idx_main_v8 (idx_main_v9 (ix2 p q)) = ix1 q := funext fun a => Fin.ext (by
    match a with | ⟨0, _⟩ => rfl)
  simp only [hl, hr, hb]
  rfl

/-- Second layer: the same over the first layer's result. -/
theorem layer2
    (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) :
    val_main_v23 (F := Ideal) x0 x1 x2 x3 x4
      = Cert.Mlp.dense Cert.Mlp.relu (val_main_v11 (F := Ideal) x0 x1 x2) (val_main_v18 (F := Ideal) x3) x4 := by
  funext i
  obtain ⟨p, q, rfl⟩ : ∃ (p : Fin 8192) (q : Fin 4096), i = ix2 p q := ⟨i 0, i 1, eq_ix2 i⟩
  rw [val_main_v23_apply, val_main_v22_apply, val_main_v19_apply, val_main_v21_apply, val_main_v20_apply,
    val_main_call1_v0_apply, val_main_call1_cst_apply, Cert.Mlp.dense_apply]
  generalize val_main_v11 (F := Ideal) x0 x1 x2 = H
  generalize val_main_v18 (F := Ideal) x3 = W
  have hl : ∀ k : Fin 4096, lidx_main_v19 (ix2 p q) k = ix2 p k := fun k => funext fun a => Fin.ext (by
    match a with | ⟨0, _⟩ => rfl | ⟨1, _⟩ => rfl)
  have hr : ∀ k : Fin 4096, ridx_main_v19 (ix2 p q) k = ix2 k q := fun k => funext fun a => Fin.ext (by
    match a with | ⟨0, _⟩ => rfl | ⟨1, _⟩ => rfl)
  have hb : idx_main_v20 (idx_main_v21 (ix2 p q)) = ix1 q := funext fun a => Fin.ext (by
    match a with | ⟨0, _⟩ => rfl)
  simp only [hl, hr, hb]
  rfl

/-- Third layer: the logistic function, written as one over one plus the exponential of the negated sum. -/
theorem layer3
    (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (x5 : (⟨S1024x4096, .f32⟩ : BufTy).Contents (Elt Ideal))
    (x6 : (⟨S1024, .f32⟩ : BufTy).Contents (Elt Ideal)) :
    val_main_v40 (F := Ideal) x0 x1 x2 x3 x4 x5 x6
      = Cert.Mlp.dense Ideal.logistic (val_main_v23 (F := Ideal) x0 x1 x2 x3 x4) (val_main_v30 (F := Ideal) x5) x6 := by
  funext i
  obtain ⟨p, q, rfl⟩ : ∃ (p : Fin 8192) (q : Fin 1024), i = ix2 p q := ⟨i 0, i 1, eq_ix2 i⟩
  rw [val_main_v40_apply, val_main_v39_apply, val_main_cst_6_apply, val_main_v38_apply, val_main_v37_apply,
    val_main_cst_5_apply, val_main_v36_apply, val_main_v35_apply, val_main_v34_apply, val_main_v31_apply,
    val_main_v33_apply, val_main_v32_apply, Cert.Mlp.dense_apply]
  generalize val_main_v23 (F := Ideal) x0 x1 x2 x3 x4 = H
  generalize val_main_v30 (F := Ideal) x5 = W
  have hl : ∀ k : Fin 4096, lidx_main_v31 (ix2 p q) k = ix2 p k := fun k => funext fun a => Fin.ext (by
    match a with | ⟨0, _⟩ => rfl | ⟨1, _⟩ => rfl)
  have hr : ∀ k : Fin 4096, ridx_main_v31 (ix2 p q) k = ix2 k q := fun k => funext fun a => Fin.ext (by
    match a with | ⟨0, _⟩ => rfl | ⟨1, _⟩ => rfl)
  have hb : idx_main_v32 (idx_main_v33 (ix2 p q)) = ix1 q := funext fun a => Fin.ext (by
    match a with | ⟨0, _⟩ => rfl)
  simp only [hl, hr, hb, Ideal.hostDivf_def, Ideal.addf_def, Ideal.hostUnary_exp_def, Ideal.hostNegf_def,
    Ideal.negf_def, Ideal.ofBits_def, one_word, Ideal.logistic]

/-- The reference's result is the three-layer network of the specification, over the scaled and transposed weights
    as the reference makes them. -/
theorem ref_is_mlp
    (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal))
    (x4 : (⟨S4096, .f32⟩ : BufTy).Contents (Elt Ideal)) (x5 : (⟨S1024x4096, .f32⟩ : BufTy).Contents (Elt Ideal))
    (x6 : (⟨S1024, .f32⟩ : BufTy).Contents (Elt Ideal)) :
    Cert.ReferenceIdeal.Read.val_main_v40 (F := Ideal) x0 x1 x2 x3 x4 x5 x6
      = Cert.Mlp.mlp x0 (Cert.ReferenceIdeal.Read.val_main_v6 (F := Ideal) x1) x2
          (Cert.ReferenceIdeal.Read.val_main_v18 (F := Ideal) x3) x4
          (Cert.ReferenceIdeal.Read.val_main_v30 (F := Ideal) x5) x6 := by
  rw [layer3, layer2, layer1]
  rfl

end Cert.ReferenceIdeal.RefValue

end
-- ==== Proof.lean ====
/-
  The kernel computes a three-layer network with binarized weights, h₁ = relu(x·W₁ᵀ + b₁), h₂ = relu(h₁·W₂ᵀ + b₂),
  out = sigmoid(h₂·W₃ᵀ + b₃), each layer as one pallas_call whose grid walks the output blocks and, innermost, four
  blocks of the contraction axis: an accumulator is cleared at the first of the four, each adds its 1024-wide product,
  and the last adds the bias, applies the activation and stores the output block. The reference is the same three
  layers as whole matrix products. On the extended reals a change of float format is the identity and a product over
  4096 positions is the sum of its four stretches of 1024 (addition is commutative and associative there; no
  finiteness is used), so the two programs end with the same array. The scaled, transposed weights come from the same
  chain of host operations in both programs and are never opened.

  frame_Kernel, frame_KernelIdeal: each region's run carries the accumulator's contents from point to point; the host
  operations and the three regions are chained, and no argument is written. frame_ReferenceIdeal: the reference's run.
  preserves: the idealization rewrote nothing. algebraic: the kernel's result array is the three-layer function of the
  arguments (layer by layer: the blocks tile each output, and a block written at the last of its four points holds
  the dense layer there), and so is the reference's.
-/
import proofs.«119758_j13554916786219_1_alg».proof.Defs
import proofs.«119758_j13554916786219_1_alg».proof.Proof.Gen.Kernel
import proofs.«119758_j13554916786219_1_alg».proof.Proof.Gen.KernelIdeal
import proofs.«119758_j13554916786219_1_alg».proof.Proof.Gen.ReferenceIdeal
import proofs.«119758_j13554916786219_1_alg».proof.Proof.Gen.Pre_finite_inputs
import proofs.«119758_j13554916786219_1_alg».proof.Proof.Gen.ReferenceIdeal.Run
import proofs.«119758_j13554916786219_1_alg».proof.Proof.Gen.ReferenceIdeal.Read
import proofs.«119758_j13554916786219_1_alg».proof.Proof.K.Args
import proofs.«119758_j13554916786219_1_alg».proof.Proof.KI.Out
import proofs.«119758_j13554916786219_1_alg».proof.Proof.KI.Whole
import proofs.«119758_j13554916786219_1_alg».proof.Proof.RefIsMlp

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Layer.frame m ρ

theorem frame_ki : Cert.frame_KernelIdeal (hKernelIdeal := Cert.KernelIdeal.Gen.facts) (hPre_finite_inputs := Cert.Pre_finite_inputs.Gen.facts) :=
  fun m ρ _ => Cert.KernelIdeal.Layer.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both idealized programs end with the three-layer function of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Layer.W4 m ρ c (Proc.devRef .tc Cert.KernelIdeal.main_v30),
    Cert.KernelIdeal.Layer.run_out (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefValue.ref_is_mlp,
    (hagree c).1, (hagree c).2.1, (hagree c).2.2.1, (hagree c).2.2.2.1, (hagree c).2.2.2.2.1, (hagree c).2.2.2.2.2.1, (hagree c).2.2.2.2.2.2]
  exact (Cert.KernelIdeal.Layer.out_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
